-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg8
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 48
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x64, .f32⟩
  | .hbm, ⟨11, _⟩ => ⟨S100000x64, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x40, .f32⟩
  | .hbm, ⟨47, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000x64 : Shape := ⟨2, ![100000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000x64, .f32⟩
  | .hbm, ⟨11, _⟩ => ⟨S1x64, .f32⟩
  | .hbm, ⟨12, _⟩ => ⟨S100000x64, .f32⟩
  | .hbm, ⟨13, _⟩ => ⟨S100000x64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x40, .f32⟩
  | .hbm, ⟨54, _⟩ => ⟨S1x40, .f32⟩
  | .hbm, ⟨55, _⟩ => ⟨S100000x40, .f32⟩
  | .hbm, ⟨56, _⟩ => ⟨S100000x40, .f32⟩
  | .hbm, ⟨57, _⟩ => ⟨S_, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x40, .f32⟩
  | .hbm, ⟨64, _⟩ => ⟨S100000x40, .f32⟩
  | .hbm, ⟨65, _⟩ => ⟨S100000x40, .f32⟩
  | .hbm, ⟨66, _⟩ => ⟨S_, .f32⟩
  | .hbm, ⟨67, _⟩ => ⟨S100000, .f32⟩
  | .hbm, ⟨68, _⟩ => ⟨S100000x1, .f32⟩
  | .hbm, ⟨69, _⟩ => ⟨S100000x1, .f32⟩
  | .hbm, ⟨70, _⟩ => ⟨S100000x40, .f32⟩
  | .hbm, ⟨71, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_v39 : Ref sig .tc := ⟨.hbm, 71, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The tiled program's run with its RESULT named.

  The program is three row-tiled stages with host operations between them. Its run is cut at six boundaries: after
  each stretch of host operations and after each stage; `W1 … W6` are the buffer contents at those boundaries, each
  a function of the one before — a stretch applies its operations, a stage leaves its arrays at what its blocks wrote
  back and every other buffer as it was. At the return every buffer that outlives a stage holds `W6`'s contents: the
  arguments, which nothing writes, still hold the launch memory, and the result holds `W6` at its own buffer — the last
  stage's output array after all twenty of its row blocks are written back (`result_eq_stage`).

  What the result IS, as a function of the arguments, is read off `W6` backwards through the boundaries in the modules
  that import this one; here is only the run itself, with the result's buffer kept in the final state's description
  beside the arguments.
-/
import proofs.«173519_j6047313953622_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer at the last boundary is the last stage's output array once every row block is written back:
    the result is that stage's fourth operand, and a stage leaves each of its arrays at what its write-backs leave. -/
theorem result_eq_stage (c : Dev nD) :
    W6 m ρ c (Proc.devRef .tc main_v31) = (dat2 (V5 m ρ) c).arrAt 3 cfg2.N :=
  W6_arr m ρ c 3

-- the library theorem's implicit arguments are found by unifying its conclusion with this statement, which takes unfolding
-- plain definitions in a metavariable's type
set_option backward.isDefEq.respectTransparency.types false in
/-- Every weakly fair execution of the tiled program terminates, nothing faulting, with the result's buffer at the last
    boundary's contents and every argument as launched: the program is the run of its six segments, the final state
    holds every long-lived buffer at `W6`, and the result's buffer is one of them. -/
theorem run_result : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Result

end
-- ==== Proof.KernelHost.lean ====
/-
  What each stage of the tiled program finds in its input arrays.

  Between the stages the tiled program applies host operations: before the first stage the first bias is reshaped to a
  row; before the second, the first stage's output is aggregated over the edge list and the second bias reshaped; before
  the third, the same for the second stage's output and the classifier's bias. No host operation and no stage writes an
  argument, so wherever an argument is read it still holds the launch memory. Hence:

    * the first stage reads the features, the first weight, and a row whose entry (0, j) is `b₁[j]`;
    * the second reads `aggregate` of the first stage's output array, the second weight, and the row of `b₂`;
    * the third reads `aggregate` of the second stage's output array, the classifier's weight, and the row of `b_c`.

  `aggregate` is the aggregation over the edge list exactly as the program applies it (gather the rows `edge_col`
  names, scale by `edge_val`, add into the rows `edge_row` names); it is carried as one function of the dense array and
  never opened.
-/
import proofs.«173519_j6047313953622_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- Aggregation over the edge list, as the tiled program applies it: gather the dense array's row `col[e]` for every
    edge (a negative index wrapped by 100000 first), scale it by `val[e]`, add it into row `row[e]` of zeros. -/
def aggregate (row col : (⟨S1600000, .i32⟩ : BufTy).Contents (Elt F)) (val : (⟨S1600000, .f32⟩ : BufTy).Contents (Elt F)) (dense : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 dense
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-! ## The host stretches, over any buffer contents

Each fact is stated for ARBITRARY contents `W` of the buffers before the stretch: what the stretch leaves in the buffer
a later stage reads, as a function of what it found in the buffers it reads. -/

/-- The first stretch reshapes the first bias to a row and writes nothing else. -/
theorem row0 (W : Valuation τ sig (Elt F)) :
    StableHlo.after hostOps0 W (Proc.devRef .tc main_v0)
      = fun i => shapeCast S1x64 (W (Proc.devRef .tc main_arg5) : (⟨S64, .f32⟩ : BufTy).Contents (Elt F)) shapeCasts_S64_S1x64 i := by
  after_results <;> rfl
theorem keeps0_arg0 (W : Valuation τ sig (Elt F)) :
    StableHlo.after hostOps0 W (Proc.devRef .tc main_arg0) = W (Proc.devRef .tc main_arg0) := by
  after_results <;> rfl
theorem keeps0_arg1 (W : Valuation τ sig (Elt F)) :
    StableHlo.after hostOps0 W (Proc.devRef .tc main_arg1) = W (Proc.devRef .tc main_arg1) := by
  after_results <;> rfl
theorem keeps0_arg2 (W : Valuation τ sig (Elt F)) :
    StableHlo.after hostOps0 W (Proc.devRef .tc main_arg2) = W (Proc.devRef .tc main_arg2) := by
  after_results <;> rfl
theorem keeps0_arg3 (W : Valuation τ sig (Elt F)) :
    StableHlo.after hostOps0 W (Proc.devRef .tc main_arg3) = W (Proc.devRef .tc main_arg3) := by
  after_results <;> rfl
theorem keeps0_arg4 (W : Valuation τ sig (Elt F)) :
    StableHlo.after hostOps0 W (Proc.devRef .tc main_arg4) = W (Proc.devRef .tc main_arg4) := by
  after_results <;> rfl
theorem keeps0_arg6 (W : Valuation τ sig (Elt F)) :
    StableHlo.after hostOps0 W (Proc.devRef .tc main_arg6) = W (Proc.devRef .tc main_arg6) := by
  after_results <;> rfl
theorem keeps0_arg7 (W : Valuation τ sig (Elt F)) :
    StableHlo.after hostOps0 W (Proc.devRef .tc main_arg7) = W (Proc.devRef .tc main_arg7) := by
  after_results <;> rfl
theorem keeps0_arg8 (W : Valuation τ sig (Elt F)) :
    StableHlo.after hostOps0 W (Proc.devRef .tc main_arg8) = W (Proc.devRef .tc main_arg8) := by
  after_results <;> rfl
theorem keeps0_arg9 (W : Valuation τ sig (Elt F)) :
    StableHlo.after hostOps0 W (Proc.devRef .tc main_arg9) = W (Proc.devRef .tc main_arg9) := by
  after_results <;> rfl

set_option maxHeartbeats 1000000 in
/-- The second stretch leaves, in the second stage's input, the aggregation of the first stage's output, -/
theorem aggregated1 (W : Valuation τ sig (Elt F)) :
    StableHlo.after hostOps1 W (Proc.devRef .tc main_v14)
      = aggregate (W (Proc.devRef .tc main_arg1)) (W (Proc.devRef .tc main_arg2)) (W (Proc.devRef .tc main_arg3)) (W (Proc.devRef .tc main_v1)) := by
  after_results_simp <;> rfl
/-- the second bias as a row, -/
theorem row1 (W : Valuation τ sig (Elt F)) :
    StableHlo.after hostOps1 W (Proc.devRef .tc main_v15)
      = fun i => shapeCast S1x64 (W (Proc.devRef .tc main_arg7) : (⟨S64, .f32⟩ : BufTy).Contents (Elt F)) shapeCasts_S64_S1x64 i := by
  after_results <;> rfl
/-- and every argument a later stage reads as it found it. -/
theorem keeps1_arg1 (W : Valuation τ sig (Elt F)) :
    StableHlo.after hostOps1 W (Proc.devRef .tc main_arg1) = W (Proc.devRef .tc main_arg1) := by
  after_results <;> rfl
theorem keeps1_arg2 (W : Valuation τ sig (Elt F)) :
    StableHlo.after hostOps1 W (Proc.devRef .tc main_arg2) = W (Proc.devRef .tc main_arg2) := by
  after_results <;> rfl
theorem keeps1_arg3 (W : Valuation τ sig (Elt F)) :
    StableHlo.after hostOps1 W (Proc.devRef .tc main_arg3) = W (Proc.devRef .tc main_arg3) := by
  after_results <;> rfl
theorem keeps1_arg6 (W : Valuation τ sig (Elt F)) :
    StableHlo.after hostOps1 W (Proc.devRef .tc main_arg6) = W (Proc.devRef .tc main_arg6) := by
  after_results <;> rfl
theorem keeps1_arg8 (W : Valuation τ sig (Elt F)) :
    StableHlo.after hostOps1 W (Proc.devRef .tc main_arg8) = W (Proc.devRef .tc main_arg8) := by
  after_results <;> rfl
theorem keeps1_arg9 (W : Valuation τ sig (Elt F)) :
    StableHlo.after hostOps1 W (Proc.devRef .tc main_arg9) = W (Proc.devRef .tc main_arg9) := by
  after_results <;> rfl

set_option maxHeartbeats 1000000 in
/-- The third stretch leaves, in the third stage's input, the aggregation of the second stage's output, -/
theorem aggregated2 (W : Valuation τ sig (Elt F)) :
    StableHlo.after hostOps2 W (Proc.devRef .tc main_v29)
      = aggregate (W (Proc.devRef .tc main_arg1)) (W (Proc.devRef .tc main_arg2)) (W (Proc.devRef .tc main_arg3)) (W (Proc.devRef .tc main_v16)) := by
  after_results_simp <;> rfl
/-- the classifier's bias as a row, -/
theorem row2 (W : Valuation τ sig (Elt F)) :
    StableHlo.after hostOps2 W (Proc.devRef .tc main_v30)
      = fun i => shapeCast S1x40 (W (Proc.devRef .tc main_arg9) : (⟨S40, .f32⟩ : BufTy).Contents (Elt F)) shapeCasts_S40_S1x40 i := by
  after_results <;> rfl
/-- and the classifier's weight as it found it. -/
theorem keeps2_arg8 (W : Valuation τ sig (Elt F)) :
    StableHlo.after hostOps2 W (Proc.devRef .tc main_arg8) = W (Proc.devRef .tc main_arg8) := by
  after_results <;> rfl

variable (m : (ℓ : Loc nD τ sig) → Buf (Elt F) ℓ) (ρ : Dev nD → PrngReg) (c : Dev nD)

/-! ## The arguments are never written -/

theorem W2_arg1 : W2 m ρ c (Proc.devRef .tc main_arg1) = m ((c : Thread nD τ).loc main_arg1) :=
  (W2_of_ne m ρ c main_arg1 (by decide)).trans (keeps0_arg1 (W0 m ρ c))
theorem W2_arg2 : W2 m ρ c (Proc.devRef .tc main_arg2) = m ((c : Thread nD τ).loc main_arg2) :=
  (W2_of_ne m ρ c main_arg2 (by decide)).trans (keeps0_arg2 (W0 m ρ c))
theorem W2_arg3 : W2 m ρ c (Proc.devRef .tc main_arg3) = m ((c : Thread nD τ).loc main_arg3) :=
  (W2_of_ne m ρ c main_arg3 (by decide)).trans (keeps0_arg3 (W0 m ρ c))
theorem W2_arg6 : W2 m ρ c (Proc.devRef .tc main_arg6) = m ((c : Thread nD τ).loc main_arg6) :=
  (W2_of_ne m ρ c main_arg6 (by decide)).trans (keeps0_arg6 (W0 m ρ c))
theorem W2_arg7 : W2 m ρ c (Proc.devRef .tc main_arg7) = m ((c : Thread nD τ).loc main_arg7) :=
  (W2_of_ne m ρ c main_arg7 (by decide)).trans (keeps0_arg7 (W0 m ρ c))
theorem W2_arg8 : W2 m ρ c (Proc.devRef .tc main_arg8) = m ((c : Thread nD τ).loc main_arg8) :=
  (W2_of_ne m ρ c main_arg8 (by decide)).trans (keeps0_arg8 (W0 m ρ c))
theorem W2_arg9 : W2 m ρ c (Proc.devRef .tc main_arg9) = m ((c : Thread nD τ).loc main_arg9) :=
  (W2_of_ne m ρ c main_arg9 (by decide)).trans (keeps0_arg9 (W0 m ρ c))

theorem W4_arg1 : W4 m ρ c (Proc.devRef .tc main_arg1) = m ((c : Thread nD τ).loc main_arg1) :=
  (W4_of_ne m ρ c main_arg1 (by decide)).trans ((keeps1_arg1 (W2 m ρ c)).trans (W2_arg1 m ρ c))
theorem W4_arg2 : W4 m ρ c (Proc.devRef .tc main_arg2) = m ((c : Thread nD τ).loc main_arg2) :=
  (W4_of_ne m ρ c main_arg2 (by decide)).trans ((keeps1_arg2 (W2 m ρ c)).trans (W2_arg2 m ρ c))
theorem W4_arg3 : W4 m ρ c (Proc.devRef .tc main_arg3) = m ((c : Thread nD τ).loc main_arg3) :=
  (W4_of_ne m ρ c main_arg3 (by decide)).trans ((keeps1_arg3 (W2 m ρ c)).trans (W2_arg3 m ρ c))
theorem W4_arg8 : W4 m ρ c (Proc.devRef .tc main_arg8) = m ((c : Thread nD τ).loc main_arg8) :=
  (W4_of_ne m ρ c main_arg8 (by decide)).trans ((keeps1_arg8 (W2 m ρ c)).trans (W2_arg8 m ρ c))
theorem W4_arg9 : W4 m ρ c (Proc.devRef .tc main_arg9) = m ((c : Thread nD τ).loc main_arg9) :=
  (W4_of_ne m ρ c main_arg9 (by decide)).trans ((keeps1_arg9 (W2 m ρ c)).trans (W2_arg9 m ρ c))

/-! ## The first stage's inputs -/

/-- The first stage reads the features as launched, -/
theorem stage1_features : V1 m ρ c main_arg0 = m ((c : Thread nD τ).loc main_arg0) := keeps0_arg0 (W0 m ρ c)
/-- the first weight as launched, -/
theorem stage1_weight : V1 m ρ c main_arg4 = m ((c : Thread nD τ).loc main_arg4) := keeps0_arg4 (W0 m ρ c)
/-- and a row whose entry (0, j) is the first bias at j. -/
theorem stage1_bias (j : Fin 64) :
    (V1 m ρ c main_v0 : (⟨S1x64, .f32⟩ : BufTy).Contents (Elt F)) (ix2 0 j)
      = (m ((c : Thread nD τ).loc main_arg5) : (⟨S64, .f32⟩ : BufTy).Contents (Elt F)) (ix1 j) :=
  (congrFun (row0 (W0 m ρ c)) (ix2 0 j)).trans (shapeCast_a_1a_apply _ _ 0 j)

/-! ## The second stage's inputs -/

/-- The second stage reads the aggregation of the first stage's output array, -/
theorem stage2_input :
    V3 m ρ c main_v14 = aggregate (m ((c : Thread nD τ).loc main_arg1)) (m ((c : Thread nD τ).loc main_arg2))
      (m ((c : Thread nD τ).loc main_arg3)) ((dat0 (V1 m ρ) c).arrAt 3 cfg0.N) := by
  refine (aggregated1 (W2 m ρ c)).trans ?_
  rw [W2_arg1, W2_arg2, W2_arg3, show W2 m ρ c (Proc.devRef .tc main_v1) = (dat0 (V1 m ρ) c).arrAt 3 cfg0.N from W2_arr m ρ c 3]
/-- the second weight as launched, -/
theorem stage2_weight : V3 m ρ c main_arg6 = m ((c : Thread nD τ).loc main_arg6) :=
  (keeps1_arg6 (W2 m ρ c)).trans (W2_arg6 m ρ c)
/-- and a row whose entry (0, j) is the second bias at j. -/
theorem stage2_bias (j : Fin 64) :
    (V3 m ρ c main_v15 : (⟨S1x64, .f32⟩ : BufTy).Contents (Elt F)) (ix2 0 j)
      = (m ((c : Thread nD τ).loc main_arg7) : (⟨S64, .f32⟩ : BufTy).Contents (Elt F)) (ix1 j) := by
  refine (congrFun (row1 (W2 m ρ c)) (ix2 0 j)).trans ?_
  rw [W2_arg7]
  exact shapeCast_a_1a_apply _ _ 0 j

/-! ## The third stage's inputs -/

/-- The third stage reads the aggregation of the second stage's output array, -/
theorem stage3_input :
    V5 m ρ c main_v29 = aggregate (m ((c : Thread nD τ).loc main_arg1)) (m ((c : Thread nD τ).loc main_arg2))
      (m ((c : Thread nD τ).loc main_arg3)) ((dat1 (V3 m ρ) c).arrAt 3 cfg1.N) := by
  refine (aggregated2 (W4 m ρ c)).trans ?_
  rw [W4_arg1, W4_arg2, W4_arg3, show W4 m ρ c (Proc.devRef .tc main_v16) = (dat1 (V3 m ρ) c).arrAt 3 cfg1.N from W4_arr m ρ c 3]
/-- the classifier's weight as launched, -/
theorem stage3_weight : V5 m ρ c main_arg8 = m ((c : Thread nD τ).loc main_arg8) :=
  (keeps2_arg8 (W4 m ρ c)).trans (W4_arg8 m ρ c)
/-- and a row whose entry (0, j) is the classifier's bias at j. -/
theorem stage3_bias (j : Fin 40) :
    (V5 m ρ c main_v30 : (⟨S1x40, .f32⟩ : BufTy).Contents (Elt F)) (ix2 0 j)
      = (m ((c : Thread nD τ).loc main_arg9) : (⟨S40, .f32⟩ : BufTy).Contents (Elt F)) (ix1 j) := by
  refine (congrFun (row2 (W4 m ρ c)) (ix2 0 j)).trans ?_
  rw [W4_arg9]
  exact shapeCast_a_1a_apply _ _ 0 j

end Cert.KernelIdeal.Host

end
-- ==== Proof.Stages.lean ====
/-
  The three dense stages of a two-layer graph convolution with a log-softmax head, as functions of WHOLE arrays over
  the extended reals — the common value both programs are compared with, stated without any program.

  With N = 100000 nodes: a first layer `x·W₁ + b₁` (128 → 64 features), a second `relu(h)·W₂ + b₂` (64 → 64), and a
  head `h·W_c + b_c` (64 → 40 classes) followed by a row-wise log-softmax in its shifted form
  `(ℓ − M) − log Σⱼ exp(ℓⱼ − M)`, `M` the row's maximum. A bias is taken as a ONE-ROW array [1, D] (the tiled program
  stages it as such; the plain program's [D] vector is read at the same column).

  Every entry of a stage's result depends on ONE ROW of the stage's input and on the whole weight and bias: that is what
  lets a program cut the rows into blocks and compute each block by itself.

  Sums are finite sums in the commutative monoid of the extended reals and the maximum is a fold of `max`: neither
  depends on an order, and no law used below needs an entry to be finite. The two float literals (the zero that relu
  compares with and the row maximum's starting value, the pattern of −∞) stay as their bit patterns: both programs
  print the same words, so they are never evaluated.
-/
import Idealize.ShloMosaic.PureOps.Ideal
import Idealize.ShloMosaic.Lib.ValueIdx

noncomputable section

namespace Cert.Gcn

open Idealize.ShloMosaic Idealize.ShloMosaic.ValueIdx

/-- The zero relu compares with, as printed. -/
abbrev zeroWord : EReal := Ideal.ofBits .f32 0x00000000#32
/-- The value a row maximum starts from, as printed (the pattern of −∞). -/
abbrev negInfWord : EReal := Ideal.ofBits .f32 0xFF800000#32

/-- First layer: entry (r, j) of `x·W + b` is `Σₖ x[r,k]·W[k,j] + b[0,j]`, k over the 128 input features. -/
def layer1 (x : (⟨2, ![100000, 128]⟩ : Shape).Idx → EReal) (w : (⟨2, ![128, 64]⟩ : Shape).Idx → EReal)
    (b : (⟨2, ![1, 64]⟩ : Shape).Idx → EReal) : (⟨2, ![100000, 64]⟩ : Shape).Idx → EReal :=
  fun i => (∑ k : Fin 128, x (ix2 (i 0) k) * w (ix2 k (i 1))) + b (ix2 0 (i 1))

/-- Second layer: entry (r, j) of `relu(h)·W + b` is `Σₖ max(h[r,k], 0)·W[k,j] + b[0,j]`, k over the 64 hidden features. -/
def layer2 (h : (⟨2, ![100000, 64]⟩ : Shape).Idx → EReal) (w : (⟨2, ![64, 64]⟩ : Shape).Idx → EReal)
    (b : (⟨2, ![1, 64]⟩ : Shape).Idx → EReal) : (⟨2, ![100000, 64]⟩ : Shape).Idx → EReal :=
  fun i => (∑ k : Fin 64, max (h (ix2 (i 0) k)) zeroWord * w (ix2 k (i 1))) + b (ix2 0 (i 1))

/-- The head's logits: entry (r, j) of `h·W + b` is `Σₖ h[r,k]·W[k,j] + b[0,j]`, j over the 40 classes. -/
def logits (h : (⟨2, ![100000, 64]⟩ : Shape).Idx → EReal) (w : (⟨2, ![64, 40]⟩ : Shape).Idx → EReal)
    (b : (⟨2, ![1, 40]⟩ : Shape).Idx → EReal) : (⟨2, ![100000, 40]⟩ : Shape).Idx → EReal :=
  fun i => (∑ k : Fin 64, h (ix2 (i 0) k) * w (ix2 k (i 1))) + b (ix2 0 (i 1))

/-- The maximum of row `r` of a [100000, 40] array: the fold of `max` over the row's 40 entries from the starting word. -/
def rowMax (l : (⟨2, ![100000, 40]⟩ : Shape).Idx → EReal) (r : Fin 100000) : EReal :=
  (Finset.univ : Finset (Fin 40)).fold max negInfWord (fun j => l (ix2 r j))

/-- Row-wise log-softmax in its shifted form: entry (r, j) is `(ℓ[r,j] − M_r) − log Σⱼ' exp(ℓ[r,j'] − M_r)`. -/
def logSoftmax (l : (⟨2, ![100000, 40]⟩ : Shape).Idx → EReal) : (⟨2, ![100000, 40]⟩ : Shape).Idx → EReal :=
  fun i => (l i - rowMax l (i 0)) - Ideal.log (∑ j : Fin 40, Ideal.exp (l (ix2 (i 0) j) - rowMax l (i 0)))

/-- The head: logits, then the row-wise log-softmax. -/
def head (h : (⟨2, ![100000, 64]⟩ : Shape).Idx → EReal) (w : (⟨2, ![64, 40]⟩ : Shape).Idx → EReal)
    (b : (⟨2, ![1, 40]⟩ : Shape).Idx → EReal) : (⟨2, ![100000, 40]⟩ : Shape).Idx → EReal :=
  logSoftmax (logits h w b)

/-- A fold of `max` is at least the value it starts from, so taking `max` with that value once more changes nothing
    (the plain program does so before it subtracts the row maximum). -/
theorem max_start_fold {ι : Type} (s : Finset ι) (a : EReal) (f : ι → EReal) :
    max a (s.fold max a f) = s.fold max a f :=
  max_eq_right ((Finset.le_fold_max a).mpr (Or.inl le_rfl))

end Cert.Gcn

end
-- ==== Proof.Stage1Rows.lean ====
/-
  The first dense stage of the tiled program, read as a function of whole arrays.

  The stage cuts the 100000 rows of its input into twenty blocks of 5000 rows. At each block it computes, from the
  block, the whole weight and the one-row bias, the block of `x·W₁ + b₁` with the same rows, and writes that block
  back to the output array. Because entry (r, j) of `x·W₁ + b₁` depends only on row r of x, the twenty blocks written
  back are the twenty row blocks of ONE array, `Cert.Gcn.layer1` of the stage's three operands; and because the blocks
  cover every row, that array is what the output holds when the stage is over.

  The steps: (1) the body's arithmetic at one entry (p, q) of a block is `Σₖ x[p,k]·W[k,q] + b[0,q]`; (2) where each
  window's block sits in its array, at every one of the twenty grid points; (3) what a grid point writes back is the
  corresponding row block of `layer1`; (4) every row lies in some block, so the written blocks make up the array.
-/
import proofs.«173519_j6047313953622_1_alg».proof.Proof.Gen.KernelIdeal.Frame
import proofs.«173519_j6047313953622_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## (1) The body's arithmetic at one entry of a block -/

/-- In the block's matrix product the left operand is read on its first axis (the one the product keeps) at the
    result's row, whatever the contracted coordinate is. -/
theorem lhs_row (j : S5000x64.Idx) (κ : dot_S5000x128_S128x64_S5000x64_1_0_0_1_n_n.contr.Idx) :
    (dot_S5000x128_S128x64_S5000x64_1_0_0_1_n_n.lhsIdx j κ 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The right operand is read on its second axis (the one the product keeps) at the result's column. -/
theorem rhs_col (j : S5000x64.Idx) (κ : dot_S5000x128_S128x64_S5000x64_1_0_0_1_n_n.contr.Idx) :
    (dot_S5000x128_S128x64_S5000x64_1_0_0_1_n_n.rhsIdx j κ 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The block's matrix product at entry (p, q): with a zero accumulator, a product that contracts the left operand's
    second axis with the right operand's first is the sum over the 128 shared coordinates k of `a[p,k]·b[k,q]`. The
    product is stated over a one-axis "contraction index"; the sum is re-indexed through the bijection between that
    index and its single coordinate, and the operands' indices are then compared coordinate by coordinate: on the
    contracted axes both read the coordinate k, on the kept axes the row p and the column q. -/
theorem matmul_entry (a : FVec Ideal S5000x128 .bf16) (b : FVec Ideal S128x64 .bf16) (p : Fin 5000) (q : Fin 64) :
    matmul (F := Ideal) dot_S5000x128_S128x64_S5000x64_1_0_0_1_n_n none a b (constant (F := Ideal) S5000x64 .f32 0x00000000#32) (ix2 p q)
      = ∑ k : Fin 128, a (ix2 p k) * b (ix2 k q) := by
  refine (Ideal.matmul_constant_zero_apply dot_S5000x128_S128x64_S5000x64_1_0_0_1_n_n none a b (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun ax => Fin.ext (by
      match ax with
      | ⟨0, _⟩ => exact lhs_row _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun ax => Fin.ext (by
      match ax with
      | ⟨0, _⟩ => exact (dot_S5000x128_S128x64_S5000x64_1_0_0_1_n_n.rhsIdx_val_of_single rfl _ _).trans hk
      | ⟨1, _⟩ => exact rhs_col _ _)
  rw [el, er]

/-- The body's arithmetic at entry (p, q) of a block: `Σₖ x[p,k]·W[k,q] + b[0,q]`. The two changes of number format in
    front of the product are the identity on extended reals, the cast of the bias to its own shape is the identity,
    and the one-row bias repeated over the 5000 rows reads its single row at column q. -/
theorem body_entry (x0 : Vec Ideal S5000x128 .f32) (x1 : Vec Ideal S128x64 .f32) (x2 : Vec Ideal S1x64 .f32) (p : Fin 5000) (q : Fin 64) :
    k0_pay1 (F := Ideal) x0 x1 x2 (ix2 p q) = (∑ k : Fin 128, x0 (ix2 p k) * x1 (ix2 k q)) + x2 (ix2 0 q) := by
  unfold k0_pay1
  show matmul (F := Ideal) dot_S5000x128_S128x64_S5000x64_1_0_0_1_n_n none (truncf .bf16 x0 bitsLt_bf16_f32) (truncf .bf16 x1 bitsLt_bf16_f32)
        (constant (F := Ideal) S5000x64 .f32 0x00000000#32) (ix2 p q)
      + broadcastTo S5000x64 (shapeCast S1x64 x2 shapeCasts_S1x64_S1x64) broadcasts_S1x64_S5000x64 (ix2 p q) = _
  rw [matmul_entry, shapeCast_self, broadcastTo_1b_ab_apply]
  rfl

/-! ## (2) Where each window's block sits in its array -/

/-- The block indices of the four windows at every one of the twenty grid points, decided by running the printed index
    maps over the grid: the input's row block is the output's row block; the weight and the bias are taken whole (block
    index zero on both axes) at every point; the input's and the output's blocks span all columns (column block index
    zero); and the output's row block index is at most 19. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every one of the twenty row blocks of the output is some grid point's block. -/
theorem block_onto : ∀ b : Fin 20, ∃ t : Fin cfg0.N, win0_3.index t = ![b.val, 0] :=
  (by decide +kernel : ∀ b : Fin 20, ∃ t : Fin grid0.N, win0_3.index t = ![b.val, 0])

section Blocks

variable (V : (c : Dev nD) → (b : Ref sig .tc) → Buf (Elt Ideal) ((c : Thread nD τ).loc b)) (c : Dev nD)

/-- Entry (p, k) of the input's block at point `t` is the input array's entry (r, k), where r is row p of the OUTPUT's
    row block at `t`: on each axis an entry of a block sits in the array at block index × block size + its coordinate
    inside the block, and the input's row block index is the output's. -/
theorem input_block_entry (t : Fin cfg0.N) (p : Fin 5000) (k : Fin 128) (r : Fin 100000)
    (hr : r.val = win0_3.index t (0 : Fin 2) * 5000 + p.val) :
    iblk0 V c 0 t (ix2 p k) = V c (Pipeline.arrRef spec0 0) (ix2 r k) := by
  show V c (Pipeline.arrRef spec0 0) (((cfg0.win 0).blk t).view.emb (ix2 p k)) = _
  obtain ⟨e0, e1, -⟩ := block_indices t
  refine congrArg (V c (Pipeline.arrRef spec0 0)) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's block at any point is the whole weight: entry (k, q) of the block is entry (k, j) of the array for
    the column j = q. -/
theorem weight_block_entry (t : Fin cfg0.N) (k : Fin 128) (q : Fin 64) (j : Fin 64) (hj : j.val = q.val) :
    iblk0 V c 1 t (ix2 k q) = V c (Pipeline.arrRef spec0 1) (ix2 k j) := by
  show V c (Pipeline.arrRef spec0 1) (((cfg0.win 1).blk t).view.emb (ix2 k q)) = _
  obtain ⟨-, -, e2, e3, -⟩ := block_indices t
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 64 + 1 * q.val = j.val; omega

/-- The bias's block at any point is the whole one-row bias: entry (0, q) of the block is entry (0, j) of the array
    for the column j = q. -/
theorem bias_block_entry (t : Fin cfg0.N) (q : Fin 64) (j : Fin 64) (hj : j.val = q.val) :
    iblk0 V c 2 t (ix2 0 q) = V c (Pipeline.arrRef spec0 2) (ix2 0 j) := by
  show V c (Pipeline.arrRef spec0 2) (((cfg0.win 2).blk t).view.emb (ix2 0 q)) = _
  obtain ⟨-, -, -, -, e4, e5, -⟩ := block_indices t
  refine congrArg (V c (Pipeline.arrRef spec0 2)) (funext fun a => Fin.ext ?_)
  match a with
  | ⟨0, _⟩ => show win0_2.index t (0 : Fin 2) * 1 + 1 * 0 = 0; omega
  | ⟨1, _⟩ => show win0_2.index t (1 : Fin 2) * 64 + 1 * q.val = j.val; omega

/-- Entry (p, q) of the output's block at point `t` sits in the output array at row (block index × 5000 + p) and at
    column q. -/
theorem output_block_coords (t : Fin cfg0.N) (p : Fin 5000) (q : Fin 64) :
    (((cfg0.win 3).blk t).view.emb (ix2 p q) 0).val = win0_3.index t (0 : Fin 2) * 5000 + p.val
    ∧ (((cfg0.win 3).blk t).view.emb (ix2 p q) 1).val = q.val := by
  obtain ⟨-, -, -, -, -, -, e6, -⟩ := block_indices t
  constructor
  · show win0_3.index t (0 : Fin 2) * 5000 + 1 * p.val = _; omega
  · show win0_3.index t (1 : Fin 2) * 64 + 1 * q.val = _; omega

/-! ## (3) What a grid point writes back -/

/-- The body's loads and its one store go through the whole staging buffers: their rectangles start at the zero offsets. -/
theorem zero_offsets : (![0, 0] : Fin 2 → Nat) = fun _ => 0 := funext fun a => by fin_cases a <;> rfl

/-- WHAT POINT `t` WRITES BACK is row block `t` of `layer1` of the stage's three arrays. The staging buffer after the body
    holds the body's arithmetic of the three input blocks; at entry (p, q) that is `Σₖ xblock[p,k]·Wblock[k,q] +
    bblock[0,q]`; each block entry is the array entry where the OUTPUT's rectangle puts (p, q) — the input on the same
    row, the weight and bias whole — so the sum is `layer1` at the array index of (p, q). -/
theorem written_block (t : Fin cfg0.N) :
    (dat0 (F := Ideal) V c).flushed 3 t
      = ((cfg0.win 3).blk t).view.read (Elt Ideal)
          (Cert.Gcn.layer1 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨hr, hq⟩ := output_block_coords t p q
  show k0_pay1 (F := Ideal) (iblk0 V c 0 t) (iblk0 V c 1 t) (iblk0 V c 2 t) (ix2 p q)
      = Cert.Gcn.layer1 (V c (Pipeline.arrRef spec0 0)) (V c (Pipeline.arrRef spec0 1)) (V c (Pipeline.arrRef spec0 2))
          (((cfg0.win 3).blk t).view.emb (ix2 p q))
  refine (body_entry (iblk0 V c 0 t) (iblk0 V c 1 t) (iblk0 V c 2 t) p q).trans ?_
  exact congrArg₂ (fun a b : EReal => a + b)
    (Finset.sum_congr rfl fun k _ => congrArg₂ (fun a b : EReal => a * b)
      (input_block_entry V c t p k _ hr) (weight_block_entry V c t k q _ hq))
    (bias_block_entry V c t q _ hq)

/-! ## (4) The written blocks make up the array -/

/-- An index of the output array is in point `t`'s block iff, on each axis, its coordinate lies in the block's range:
    from block index × block size, for block size coordinates. -/
theorem mem_row_block (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every index of the output array lies in a block that is written back: row r lies in row block r / 5000, which is
    some grid point's block, and every grid point writes its block back. -/
theorem rows_covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_row_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Blocks

/-- THE OUTPUT ARRAY when the stage is over is `layer1` of the stage's three operands as the stage found them: every
    grid point writes back the corresponding row block of that one array, and the blocks cover every row. -/
theorem whole (V : (c : Dev nD) → (b : Ref sig .tc) → Buf (Elt Ideal) ((c : Thread nD τ).loc b)) (c : Dev nD) :
    (dat0 (F := Ideal) V c).arrAt 3 cfg0.N
      = Cert.Gcn.layer1 (V c (Pipeline.arrRef spec0 0)) (V c (Pipeline.arrRef spec0 1)) (V c (Pipeline.arrRef spec0 2)) :=
  (dat0 (F := Ideal) V c).arrAt_eq_of_cover 3 _ (fun t _ => written_block V c t) rows_covered

end Cert.KernelIdeal.Stage1

end
-- ==== Proof.Stage2Rows.lean ====
/-
  The second dense stage of the tiled program, read as a function of whole arrays.

  The stage cuts the 100000 rows of its input h into twenty blocks of 5000 rows. At each block it computes, from the
  block, the whole weight and the one-row bias, the block of `relu(h)·W₂ + b₂` with the same rows, and writes that block
  back to the output array. Entry (r, j) of `relu(h)·W₂ + b₂` depends only on row r of h — relu acts entry by entry, so
  it does not mix rows — hence the twenty blocks written back are the twenty row blocks of ONE array,
  `Cert.Gcn.layer2` of the stage's three operands; and because the blocks cover every row, that array is what the
  output holds when the stage is over.

  The steps: (1) the body's arithmetic at one entry (p, q) of a block is `Σₖ max(h[p,k], 0)·W[k,q] + b[0,q]`, the zero
  kept as the word the program prints; (2) where each window's block sits in its array, at every one of the twenty grid
  points; (3) what a grid point writes back is the corresponding row block of `layer2`; (4) every row lies in some
  block, so the written blocks make up the array.
-/
import proofs.«173519_j6047313953622_1_alg».proof.Proof.Gen.KernelIdeal.Frame
import proofs.«173519_j6047313953622_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## (1) The body's arithmetic at one entry of a block -/

/-- In the block's matrix product the left operand is read on its first axis (the one the product keeps) at the
    result's row, whatever the contracted coordinate is. -/
theorem lhs_row (j : S5000x64.Idx) (κ : dot_S5000x64_S64x64_S5000x64_1_0_0_1_n_n.contr.Idx) :
    (dot_S5000x64_S64x64_S5000x64_1_0_0_1_n_n.lhsIdx j κ 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right operand is read on its second axis (the one the product keeps) at the result's column. -/
theorem rhs_col (j : S5000x64.Idx) (κ : dot_S5000x64_S64x64_S5000x64_1_0_0_1_n_n.contr.Idx) :
    (dot_S5000x64_S64x64_S5000x64_1_0_0_1_n_n.rhsIdx j κ 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block's matrix product at entry (p, q): with a zero accumulator, a product that contracts the left operand's
    second axis with the right operand's first is the sum over the 64 shared coordinates k of `a[p,k]·b[k,q]`. The
    product is stated over a one-axis "contraction index"; the sum is re-indexed through the bijection between that
    index and its single coordinate, and the operands' indices are then compared coordinate by coordinate: on the
    contracted axes both read the coordinate k, on the kept axes the row p and the column q. -/
theorem matmul_entry (a : FVec Ideal S5000x64 .bf16) (b : FVec Ideal S64x64 .bf16) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl _ _).trans hk
      | ⟨1, _⟩ => exact rhs_col _ _)
  rw [el, er]

/-- The body's arithmetic at entry (p, q) of a block: `Σₖ max(h[p,k], 0)·W[k,q] + b[0,q]`. Relu is the entrywise
    maximum with the zero word repeated over the block, so at entry (p, k) it is the maximum of `h[p,k]` and that
    word; the two changes of number format in front of the product are the identity on extended reals, the casts of
    the input block and of the bias to their own shapes are the identity, and the one-row bias repeated over the 5000
    rows reads its single row at column q. The zero word is never evaluated: the statement keeps it as printed. -/
theorem body_entry (x0 : Vec Ideal S5000x64 .f32) (x1 : Vec Ideal S64x64 .f32) (x2 : Vec Ideal S1x64 .f32) (p : Fin 5000) (q : Fin 64) :
    k1_pay1 (F := Ideal) x0 x1 x2 (ix2 p q)
      = (∑ k : Fin 64, max (x0 (ix2 p k)) Cert.Gcn.zeroWord * x1 (ix2 k q)) + x2 (ix2 0 q) := by
  unfold k1_pay1
  show matmul (F := Ideal) dot_S5000x64_S64x64_S5000x64_1_0_0_1_n_n none
          (truncf .bf16 (maximumf (shapeCast S5000x64 x0 shapeCasts_S5000x64_S5000x64)
            (broadcast S5000x64 (Scalar.ofBits (F := Ideal) .f32 0x00000000#32))) bitsLt_bf16_f32)
          (truncf .bf16 x1 bitsLt_bf16_f32)
          (constant (F := Ideal) S5000x64 .f32 0x00000000#32) (ix2 p q)
      + broadcastTo S5000x64 (shapeCast S1x64 x2 shapeCasts_S1x64_S1x64) broadcasts_S1x64_S5000x64 (ix2 p q) = _
  rw [matmul_entry, shapeCast_self, shapeCast_self, broadcastTo_1b_ab_apply]
  rfl

/-! ## (2) Where each window's block sits in its array -/

/-- The block indices of the four windows at every one of the twenty grid points, decided by running the printed index
    maps over the grid: the input's row block is the output's row block; the weight and the bias are taken whole (block
    index zero on both axes) at every point; the input's and the output's blocks span all columns (column block index
    zero); and the output's row block index is at most 19. -/
theorem block_indices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the twenty row blocks of the output is some grid point's block. -/
theorem block_onto : ∀ b : Fin 20, ∃ t : Fin cfg1.N, win1_3.index t = ![b.val, 0] :=
  (by decide +kernel : ∀ b : Fin 20, ∃ t : Fin grid1.N, win1_3.index t = ![b.val, 0])

section Blocks

variable (V : (c : Dev nD) → (b : Ref sig .tc) → Buf (Elt Ideal) ((c : Thread nD τ).loc b)) (c : Dev nD)

/-- Entry (p, k) of the input's block at point `t` is the input array's entry (r, k), where r is row p of the OUTPUT's
    row block at `t`: on each axis an entry of a block sits in the array at block index × block size + its coordinate
    inside the block, and the input's row block index is the output's. -/
theorem input_block_entry (t : Fin cfg1.N) (p : Fin 5000) (k : Fin 64) (r : Fin 100000)
    (hr : r.val = win1_3.index t (0 : Fin 2) * 5000 + p.val) :
    iblk1 V c 0 t (ix2 p k) = V c (Pipeline.arrRef spec1 0) (ix2 r k) := by
  show V c (Pipeline.arrRef spec1 0) (((cfg1.win 0).blk t).view.emb (ix2 p k)) = _
  obtain ⟨e0, e1, -⟩ := block_indices t
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The weight's block at any point is the whole weight: entry (k, q) of the block is entry (k, j) of the array for
    the column j = q. -/
theorem weight_block_entry (t : Fin cfg1.N) (k : Fin 64) (q : Fin 64) (j : Fin 64) (hj : j.val = q.val) :
    iblk1 V c 1 t (ix2 k q) = V c (Pipeline.arrRef spec1 1) (ix2 k j) := by
  show V c (Pipeline.arrRef spec1 1) (((cfg1.win 1).blk t).view.emb (ix2 k q)) = _
  obtain ⟨-, -, e2, e3, -⟩ := block_indices t
  refine congrArg (V c (Pipeline.arrRef spec1 1)) (funext fun a => Fin.ext ?_)
  match a with
  | ⟨0, _⟩ => show win1_1.index t (0 : Fin 2) * 64 + 1 * k.val = k.val; omega
  | ⟨1, _⟩ => show win1_1.index t (1 : Fin 2) * 64 + 1 * q.val = j.val; omega

/-- The bias's block at any point is the whole one-row bias: entry (0, q) of the block is entry (0, j) of the array
    for the column j = q. -/
theorem bias_block_entry (t : Fin cfg1.N) (q : Fin 64) (j : Fin 64) (hj : j.val = q.val) :
    iblk1 V c 2 t (ix2 0 q) = V c (Pipeline.arrRef spec1 2) (ix2 0 j) := by
  show V c (Pipeline.arrRef spec1 2) (((cfg1.win 2).blk t).view.emb (ix2 0 q)) = _
  obtain ⟨-, -, -, -, e4, e5, -⟩ := block_indices t
  refine congrArg (V c (Pipeline.arrRef spec1 2)) (funext fun a => Fin.ext ?_)
  match a with
  | ⟨0, _⟩ => show win1_2.index t (0 : Fin 2) * 1 + 1 * 0 = 0; omega
  | ⟨1, _⟩ => show win1_2.index t (1 : Fin 2) * 64 + 1 * q.val = j.val; omega

/-- Entry (p, q) of the output's block at point `t` sits in the output array at row (block index × 5000 + p) and at
    column q. -/
theorem output_block_coords (t : Fin cfg1.N) (p : Fin 5000) (q : Fin 64) :
    (((cfg1.win 3).blk t).view.emb (ix2 p q) 0).val = win1_3.index t (0 : Fin 2) * 5000 + p.val
    ∧ (((cfg1.win 3).blk t).view.emb (ix2 p q) 1).val = q.val := by
  obtain ⟨-, -, -, -, -, -, e6, -⟩ := block_indices t
  constructor
  · show win1_3.index t (0 : Fin 2) * 5000 + 1 * p.val = _; omega
  · show win1_3.index t (1 : Fin 2) * 64 + 1 * q.val = _; omega

/-! ## (3) What a grid point writes back -/

/-- The body's loads and its one store go through the whole staging buffers: their rectangles start at the zero offsets. -/
theorem zero_offsets : (![0, 0] : Fin 2 → Nat) = fun _ => 0 := funext fun a => by fin_cases a <;> rfl

/-- WHAT POINT `t` WRITES BACK is row block `t` of `layer2` of the stage's three arrays. The staging buffer after the body
    holds the body's arithmetic of the three input blocks; at entry (p, q) that is `Σₖ max(hblock[p,k], 0)·Wblock[k,q] +
    bblock[0,q]`; each block entry is the array entry where the OUTPUT's rectangle puts (p, q) — the input on the same
    row, the weight and bias whole — so the sum is `layer2` at the array index of (p, q). -/
theorem written_block (t : Fin cfg1.N) :
    (dat1 (F := Ideal) V c).flushed 3 t
      = ((cfg1.win 3).blk t).view.read (Elt Ideal)
          (Cert.Gcn.layer2 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨hr, hq⟩ := output_block_coords t p q
  show k1_pay1 (F := Ideal) (iblk1 V c 0 t) (iblk1 V c 1 t) (iblk1 V c 2 t) (ix2 p q)
      = Cert.Gcn.layer2 (V c (Pipeline.arrRef spec1 0)) (V c (Pipeline.arrRef spec1 1)) (V c (Pipeline.arrRef spec1 2))
          (((cfg1.win 3).blk t).view.emb (ix2 p q))
  refine (body_entry (iblk1 V c 0 t) (iblk1 V c 1 t) (iblk1 V c 2 t) p q).trans ?_
  exact congrArg₂ (fun a b : EReal => a + b)
    (Finset.sum_congr rfl fun k _ => congrArg₂ (fun a b : EReal => a * b)
      (congrArg (fun a : EReal => max a Cert.Gcn.zeroWord) (input_block_entry V c t p k _ hr))
      (weight_block_entry V c t k q _ hq))
    (bias_block_entry V c t q _ hq)

/-! ## (4) The written blocks make up the array -/

/-- An index of the output array is in point `t`'s block iff, on each axis, its coordinate lies in the block's range:
    from block index × block size, for block size coordinates. -/
theorem mem_row_block (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v16).slice (win1_3.rect t)).set ↔ _
  rw [View.set_slice_whole, Rect.mem_set_unit]
  exact Iff.rfl

/-- Every index of the output array lies in a block that is written back: row r lies in row block r / 5000, which is
    some grid point's block, and every grid point writes its block back. -/
theorem rows_covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_row_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

end Blocks

/-- THE OUTPUT ARRAY when the stage is over is `layer2` of the stage's three operands as the stage found them: every
    grid point writes back the corresponding row block of that one array, and the blocks cover every row. -/
theorem whole (V : (c : Dev nD) → (b : Ref sig .tc) → Buf (Elt Ideal) ((c : Thread nD τ).loc b)) (c : Dev nD) :
    (dat1 (F := Ideal) V c).arrAt 3 cfg1.N
      = Cert.Gcn.layer2 (V c (Pipeline.arrRef spec1 0)) (V c (Pipeline.arrRef spec1 1)) (V c (Pipeline.arrRef spec1 2)) :=
  (dat1 (F := Ideal) V c).arrAt_eq_of_cover 3 _ (fun t _ => written_block V c t) rows_covered

end Cert.KernelIdeal.Stage2

end
-- ==== Proof.Stage3Payload.lean ====
/-
  The head stage's block computation, read entry by entry.

  One grid point of the third tiled call holds a block of 5000 rows of hidden features (64 per row), the whole weight
  [64, 40] and the one-row bias [1, 40], and leaves a block of 5000 rows of 40 class scores. Over the extended reals every
  operation is exact, so the block's result can be said in closed form: with

      L(p, j) = Σₖ x(p, k) · W(k, j) + b(0, j)          the logits of row p,
      M(p)    = max over the 40 lanes j of L(p, j)        (a fold of max from the printed starting word),

  entry (p, q) of the result is  (L(p, q) − M(p)) − log Σⱼ exp(L(p, j) − M(p)).

  The proof follows the body's own order: the product at an index (the contraction re-indexed over the 64 features), the
  bias row laid over every row, the row maximum and the row sum as reductions along the lane axis, and the two layout
  steps that turn a vector of per-row numbers [5000] into a column [5000, 1] and lay that column over the 40 lanes.
-/
import proofs.«173519_j6047313953622_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage3

open Cert.KernelIdeal Cert.KernelIdeal.Gen
open Idealize.ShloMosaic Idealize.ShloMosaic.ValueIdx Idealize.SL.Sem

/-! ## Per-row numbers as a column, and a column laid over the lanes -/

/-- A vector of a numbers [a] recast as a column [a, 1] reads, at (p, u), the vector's entry p: both sit at row-major
    position p, the unit coordinate u being 0. -/
theorem column_of_vector_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] laid over b lanes reads, at (p, c), the column's entry (p, 0): the row coordinate is kept and the
    unit axis is read at 0 whatever the lane. -/
theorem column_over_lanes_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight, at an index -/

/-- The left operand's index on its row axis is the output's row: axis 0 of the features is neither a batch axis nor
    the contracted one. -/
theorem product_row (i : S5000x40.Idx) (κ : dot_S5000x64_S64x40_S5000x40_1_0_0_1_n_n.contr.Idx) : (dot_S5000x64_S64x40_S5000x40_1_0_0_1_n_n.lhsIdx i κ 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl

/-- The left operand's index on its feature axis is the contraction index: the one contracted axis. -/
theorem product_feature (i : S5000x40.Idx) (κ : dot_S5000x64_S64x40_S5000x40_1_0_0_1_n_n.contr.Idx) :
    (dot_S5000x64_S64x40_S5000x40_1_0_0_1_n_n.lhsIdx i κ 1).val = (κ ⟨0, by decide⟩).val :=
  dot_S5000x64_S64x40_S5000x40_1_0_0_1_n_n.lhsIdx_val_of_single rfl i κ

/-- The weight's index on its feature axis is the contraction index. -/
theorem weight_feature (i : S5000x40.Idx) (κ : dot_S5000x64_S64x40_S5000x40_1_0_0_1_n_n.contr.Idx) :
    (dot_S5000x64_S64x40_S5000x40_1_0_0_1_n_n.rhsIdx i κ 0).val = (κ ⟨0, by decide⟩).val :=
  dot_S5000x64_S64x40_S5000x40_1_0_0_1_n_n.rhsIdx_val_of_single rfl i κ

/-- The weight's index on its class axis is the output's lane. -/
theorem weight_lane (i : S5000x40.Idx) (κ : dot_S5000x64_S64x40_S5000x40_1_0_0_1_n_n.contr.Idx) : (dot_S5000x64_S64x40_S5000x40_1_0_0_1_n_n.rhsIdx i κ 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- Entry (p, q) of a block of rows times the weight, accumulated from zero, is Σₖ a(p, k) · w(k, q) over the 64 hidden
    features: the contraction's one-axis index set is put in bijection with the 64 features, and the operands' indices at
    feature k are (p, k) and (k, q). -/
theorem product_apply (a : FVec Ideal S5000x64 .bf16) (w : FVec Ideal S64x40 .bf16) (p : Fin 5000) (q : Fin 40) :
    matmul dot_S5000x64_S64x40_S5000x40_1_0_0_1_n_n none a w (constant (F := Ideal) S5000x40 .f32 0x00000000#32) (ix2 p q)
      = ∑ k : Fin 64, a (ix2 p k) * w (ix2 k q) := by
  refine (Ideal.matmul_constant_zero_apply dot_S5000x64_S64x40_S5000x40_1_0_0_1_n_n none a w (ix2 p q)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k :=
    funext fun ax => Fin.ext (by
      match ax with
      | ⟨0, _⟩ => exact product_row _ _
      | ⟨1, _⟩ => exact (product_feature _ _).trans hk)
  have er : dot_S5000x64_S64x40_S5000x40_1_0_0_1_n_n.rhsIdx (ix2 p q) ((contrEquiv1 dot_S5000x64_S64x40_S5000x40_1_0_0_1_n_n 64 rfl rfl).symm k) = ix2 k q :=
    funext fun ax => Fin.ext (by
      match ax with
      | ⟨0, _⟩ => exact (weight_feature _ _).trans hk
      | ⟨1, _⟩ => exact weight_lane _ _)
  rw [el, er]

/-! ## The block's logits -/

/-- The logits the body forms from its three loaded values: the rows (their format change is exact here) times the
    weight, plus the bias row laid over every row. -/
def blockLogits (x0 : Vec Ideal S5000x64 .f32) (x1 : Vec Ideal S64x40 .f32) (x2 : Vec Ideal S1x40 .f32) :
    FVec Ideal S5000x40 .f32 :=
  addf
    (matmul dot_S5000x64_S64x40_S5000x40_1_0_0_1_n_n none
      (truncf .bf16 (shapeCast S5000x64 x0 shapeCasts_S5000x64_S5000x64) bitsLt_bf16_f32)
      (truncf .bf16 x1 bitsLt_bf16_f32) (constant (F := Ideal) S5000x40 .f32 0x00000000#32))
    (broadcastTo S5000x40 (shapeCast S1x40 x2 shapeCasts_S1x40_S1x40) broadcasts_S1x40_S5000x40)

/-- Entry (p, q) of the block's logits: Σₖ x(p, k) · W(k, q) + b(0, q). The two recasts to the same shape are the
    identity, the two format changes are exact over the extended reals, and the bias row is read at lane q. -/
theorem blockLogits_apply (x0 : Vec Ideal S5000x64 .f32) (x1 : Vec Ideal S64x40 .f32) (x2 : Vec Ideal S1x40 .f32)
    (p : Fin 5000) (q : Fin 40) :
    blockLogits x0 x1 x2 (ix2 p q) = (∑ k : Fin 64, x0 (ix2 p k) * x1 (ix2 k q)) + x2 (ix2 0 q) := by
  unfold blockLogits
  rw [shapeCast_self, shapeCast_self]
  refine (addf_apply _ _ _).trans ?_
  rw [product_apply, broadcastTo_1b_ab_apply]
  rfl

/-! ## One row's log-softmax, as a function of the row's 40 logits -/

/-- The maximum of a row's 40 numbers: the fold of max from the printed starting word (the pattern of −∞, which is kept
    as printed and never evaluated). -/
def rowMaxOf (f : Fin 40 → EReal) : EReal :=
  (Finset.univ : Finset (Fin 40)).fold max (Ideal.ofBits .f32 0xFF800000#32) f

/-- The log-softmax of one row in its shifted form: lane q of (f − M) − log Σⱼ exp(fⱼ − M), M the row's maximum. -/
def logSoftmaxRow (f : Fin 40 → EReal) (q : Fin 40) : EReal :=
  (f q - rowMaxOf f) - Ideal.log (∑ j : Fin 40, Ideal.exp (f j - rowMaxOf f))

/-! ## The reductions along the lane axis -/

/-- The index a reduction along the lane axis reads for row p at lane j, "the row index with j inserted on axis 1", is
    the pair (p, j). -/
theorem lane_inserted (p : Fin 5000) (j : Fin 40) : reduces_S5000x40_S5000.lift (ix1 p) j = ix2 p j :=
  funext fun ax => Fin.ext (by
    match ax with
    | ⟨0, _⟩ => rfl
    | ⟨1, _⟩ => rfl)

/-- The row maxima of a block of logits, as the body takes them: a max-reduction along the lanes from the printed word. -/
def rowMaxima (l : FVec Ideal S5000x40 .f32) : FVec Ideal S5000 .f32 :=
  multiReduction (F := Ideal) .maximumf [1] S5000 l 0xFF800000#32 reduces_S5000x40_S5000 (.inl rfl) rfl

/-- Row p's maximum is the fold of max over the row's 40 logits. -/
theorem rowMaxima_apply (l : FVec Ideal S5000x40 .f32) (p : Fin 5000) :
    rowMaxima l (ix1 p) = rowMaxOf (fun j => l (ix2 p j)) := by
  unfold rowMaxima rowMaxOf
  refine (Ideal.multiReduction_maximumf_single l 0xFF800000#32 reduces_S5000x40_S5000 (.inl rfl) rfl (ix1 p)).trans ?_
  exact congrArg
    (fun f : Fin 40 → EReal => (Finset.univ : Finset (Fin 40)).fold max (Ideal.ofBits .f32 0xFF800000#32) f)
    (funext fun j => congrArg l (lane_inserted p j))

/-- The logits with their row's maximum taken off: the maxima become a column, the column is laid over the lanes, and
    the difference is taken entry by entry. -/
def shiftedLogits (l : FVec Ideal S5000x40 .f32) : FVec Ideal S5000x40 .f32 :=
  subf l (broadcastTo S5000x40 (shapeCast S5000x1 (rowMaxima l) shapeCasts_S5000_S5000x1) broadcasts_S5000x1_S5000x40)

/-- Entry (p, q) of the shifted logits is L(p, q) − M(p). -/
theorem shiftedLogits_apply (l : FVec Ideal S5000x40 .f32) (p : Fin 5000) (q : Fin 40) :
    shiftedLogits l (ix2 p q) = l (ix2 p q) - rowMaxima l (ix1 p) := by
  unfold shiftedLogits
  refine (subf_apply _ _ _).trans ?_
  rw [column_over_lanes_apply, column_of_vector_apply]

/-- The row sums of the exponentials of the shifted logits: an add-reduction along the lanes from zero. -/
def rowExpSums (l : FVec Ideal S5000x40 .f32) : FVec Ideal S5000 .f32 :=
  multiReduction (F := Ideal) .add [1] S5000 (exp (shiftedLogits l)) 0x00000000#32 reduces_S5000x40_S5000 (.inl rfl) rfl

/-- Row p's sum is Σⱼ exp(L(p, j) − M(p)) over the 40 lanes. -/
theorem rowExpSums_apply (l : FVec Ideal S5000x40 .f32) (p : Fin 5000) :
    rowExpSums l (ix1 p) = ∑ j : Fin 40, Ideal.exp (l (ix2 p j) - rowMaxima l (ix1 p)) := by
  unfold rowExpSums
  refine (Ideal.multiReduction_add_single (exp (shiftedLogits l)) 0x00000000#32 reduces_S5000x40_S5000 (.inl rfl) rfl
    (ix1 p)).trans ?_
  show ∑ j : Fin 40, exp (shiftedLogits l) (reduces_S5000x40_S5000.lift (ix1 p) j) = _
  refine Finset.sum_congr rfl fun j _ => ?_
  rw [lane_inserted p j]
  show Ideal.exp (shiftedLogits l (ix2 p j)) = _
  rw [shiftedLogits_apply]

/-- The body's last steps: the row sums become a column, its logarithm is taken, the column is laid over the lanes and
    taken off the shifted logits. -/
def logSoftmaxRows (l : FVec Ideal S5000x40 .f32) : FVec Ideal S5000x40 .f32 :=
  subf (shiftedLogits l)
    (broadcastTo S5000x40 (log (shapeCast S5000x1 (rowExpSums l) shapeCasts_S5000_S5000x1)) broadcasts_S5000x1_S5000x40)

/-- Entry (p, q) of the result is the log-softmax of row p's logits at lane q. -/
theorem logSoftmaxRows_apply (l : FVec Ideal S5000x40 .f32) (p : Fin 5000) (q : Fin 40) :
    logSoftmaxRows l (ix2 p q) = logSoftmaxRow (fun j => l (ix2 p j)) q := by
  unfold logSoftmaxRows logSoftmaxRow
  refine (subf_apply _ _ _).trans ?_
  rw [column_over_lanes_apply, shiftedLogits_apply]
  show _ - Ideal.log (shapeCast S5000x1 (rowExpSums l) shapeCasts_S5000_S5000x1 (ix2 p (0 : Fin 1))) = _
  rw [column_of_vector_apply, rowExpSums_apply, rowMaxima_apply]

/-! ## The body's payload -/

/-- The body's stored value is the row-wise log-softmax of the block's logits: the printed sequence of operations is
    these two definitions one after the other. -/
theorem payload_eq (x0 : Vec Ideal S5000x64 .f32) (x1 : Vec Ideal S64x40 .f32) (x2 : Vec Ideal S1x40 .f32) :
    k2_pay1 (F := Ideal) x0 x1 x2 = logSoftmaxRows (blockLogits x0 x1 x2) := rfl

/-- Row p's 40 logits from the block's three values. -/
def rowLogits (x0 : Vec Ideal S5000x64 .f32) (x1 : Vec Ideal S64x40 .f32) (x2 : Vec Ideal S1x40 .f32) (p : Fin 5000)
    (j : Fin 40) : EReal :=
  (∑ k : Fin 64, x0 (ix2 p k) * x1 (ix2 k j)) + x2 (ix2 0 j)

/-- THE PAYLOAD AT AN INDEX: entry (p, q) of what the body stores is the log-softmax, at lane q, of row p's logits
    Σₖ x(p, k) · W(k, ·) + b(0, ·). Only row p of the block of rows enters. -/
theorem payload_apply (x0 : Vec Ideal S5000x64 .f32) (x1 : Vec Ideal S64x40 .f32) (x2 : Vec Ideal S1x40 .f32)
    (p : Fin 5000) (q : Fin 40) :
    k2_pay1 (F := Ideal) x0 x1 x2 (ix2 p q) = logSoftmaxRow (rowLogits x0 x1 x2 p) q := by
  rw [payload_eq, logSoftmaxRows_apply]
  exact congrArg (fun f => logSoftmaxRow f q) (funext fun j => blockLogits_apply x0 x1 x2 p j)

end Cert.KernelIdeal.Stage3

end
-- ==== Proof.Stage3Rows.lean ====
/-
  The head stage, from blocks to the whole array.

  The third tiled call cuts the 100000 rows of hidden features into 20 blocks of 5000 rows; at grid point t it computes,
  from block t of the rows, the whole weight and the whole bias row, block t of the result (5000 rows of 40 class
  scores), and writes that block back. Every entry of the head of the WHOLE arrays depends on one row of the features
  only (the log-softmax is taken row by row), so block t of the head of the whole arrays is what point t computes from
  block t. The 20 blocks cover every row (row r lies in block r / 5000), so after the last point the result array is
  the head of the arrays the call was entered with.
-/
import proofs.«173519_j6047313953622_1_alg».proof.Proof.Gen.KernelIdeal.Frame
import proofs.«173519_j6047313953622_1_alg».proof.Proof.Stages
import proofs.«173519_j6047313953622_1_alg».proof.Proof.Stage3Payload
import Idealize.ShloMosaic.Lib.Pipeline.Value
import Idealize.ShloMosaic.Lib.ValueIdx

set_option maxRecDepth 16384

noncomputable section

namespace Cert.KernelIdeal.Stage3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The head at an index -/

/-- Entry (r, q) of the head of whole arrays is the log-softmax, at lane q, of row r's logits: the stage's definition
    with the index's two coordinates named. Only row r of the features enters. -/
theorem head_apply (h : (⟨2, ![100000, 64]⟩ : Shape).Idx → EReal) (w : (⟨2, ![64, 40]⟩ : Shape).Idx → EReal)
    (b : (⟨2, ![1, 40]⟩ : Shape).Idx → EReal) (r : Fin 100000) (q : Fin 40) :
    Cert.Gcn.head h w b (ix2 r q)
      = logSoftmaxRow (fun j => (∑ k : Fin 64, h (ix2 r k) * w (ix2 k j)) + b (ix2 0 j)) q := rfl

/-! ## Where each window's block sits -/

/-- The offsets [0, 0] of the body's whole-buffer accesses are zero on each axis. -/
theorem zero_offsets : (![0, 0] : Fin 2 → Nat) = fun _ => 0 := funext fun a => by fin_cases a <;> rfl

/-- The printed index maps over the 20 grid points: at point t the rows' block and the result's block are both block t
    along the rows (and block 0 along the lanes), the weight and the bias row are block (0, 0) at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the rows' block at point t is row 5000·t + p of the array of hidden features. -/
theorem rows_block_apply (c : Dev nD) (t : Fin cfg2.N) (p : Fin 5000) (k : Fin 64) (r : Fin 100000)
    (hr : r.val = t.val * 5000 + p.val) :
    (iblk2 V c 0 t : Vec Ideal S5000x64 .f32) (ix2 p k)
      = (V c (Pipeline.arrRef spec2 0) : S100000x64.Idx → EReal) (ix2 r k) := by
  obtain ⟨e0, e1, -⟩ := block_indices t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weight's block at any point is the whole weight. -/
theorem weight_block_apply (c : Dev nD) (t : Fin cfg2.N) (k : Fin 64) (j : Fin 40) :
    (iblk2 V c 1 t : Vec Ideal S64x40 .f32) (ix2 k j)
      = (V c (Pipeline.arrRef spec2 1) : S64x40.Idx → EReal) (ix2 k j) := by
  obtain ⟨-, -, e0, e1, -⟩ := block_indices t
  show V c (Pipeline.arrRef spec2 1) (((cfg2.win 1).blk t).view.emb (ix2 k j)) = _
  refine congrArg (V c (Pipeline.arrRef spec2 1)) (funext fun a => Fin.ext ?_)
  match a with
  | ⟨0, _⟩ => show win2_1.index t (0 : Fin 2) * 64 + 1 * k.val = k.val; omega
  | ⟨1, _⟩ => show win2_1.index t (1 : Fin 2) * 40 + 1 * j.val = j.val; omega

/-- The bias row's block at any point is the whole bias row. -/
theorem bias_block_apply (c : Dev nD) (t : Fin cfg2.N) (j : Fin 40) :
    (iblk2 V c 2 t : Vec Ideal S1x40 .f32) (ix2 0 j)
      = (V c (Pipeline.arrRef spec2 2) : S1x40.Idx → EReal) (ix2 0 j) := by
  obtain ⟨-, -, -, -, e0, e1, -⟩ := block_indices t
  show V c (Pipeline.arrRef spec2 2) (((cfg2.win 2).blk t).view.emb (ix2 0 j)) = _
  refine congrArg (V c (Pipeline.arrRef spec2 2)) (funext fun a => Fin.ext ?_)
  match a with
  | ⟨0, _⟩ => show win2_2.index t (0 : Fin 2) * 1 + 1 * 0 = 0; omega
  | ⟨1, _⟩ => show win2_2.index t (1 : Fin 2) * 40 + 1 * j.val = j.val; omega

/-! ## What a grid point writes back -/

/-- WHAT POINT t WRITES BACK is block t of the head of the arrays the call was entered with. The body's one store
    through the whole staging buffer leaves its payload; at (p, q) the payload is the log-softmax of row p's logits from
    the three blocks; the rows' block is read at row 5000·t + p of the features, the weight and the bias row whole; and
    that is entry (5000·t + p, q) of the head, which is where the result's block t puts (p, q). -/
theorem flushed_eq (c : Dev nD) (t : Fin cfg2.N) :
    (dat2 (F := Ideal) V c).flushed 3 t = ((cfg2.win 3).blk t).view.read (Elt Ideal)
      (Cert.Gcn.head (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x40) zero_offsets,
    View.ld_unit_zero (S := S1x40) zero_offsets]
  funext j
  obtain ⟨p, q, rfl⟩ : ∃ (p : Fin 5000) (q : Fin 40), j = ix2 p q := ⟨j 0, j 1, eq_ix2 j⟩
  have ht : t.val < 20 := t.isLt
  have hp : p.val < 5000 := p.isLt
  have hr : t.val * 5000 + p.val < 100000 := by omega
  obtain ⟨-, -, -, -, -, -, e0, e1⟩ := block_indices t
  -- where the result's block t puts (p, q): row 5000·t + p, lane q
  have hemb : ((cfg2.win 3).blk t).view.emb (ix2 p q) = ix2 (⟨t.val * 5000 + p.val, hr⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 40 + 1 * q.val = q.val; omega
  show k2_pay1 (F := Ideal) (iblk2 V c 0 t) (iblk2 V c 1 t) (iblk2 V c 2 t) (ix2 p q)
    = Cert.Gcn.head (V c (Pipeline.arrRef spec2 0)) (V c (Pipeline.arrRef spec2 1)) (V c (Pipeline.arrRef spec2 2))
        (((cfg2.win 3).blk t).view.emb (ix2 p q))
  rw [hemb]
  refine ((payload_apply (iblk2 V c 0 t) (iblk2 V c 1 t) (iblk2 V c 2 t) p q).trans ?_).trans
    (head_apply (V c (Pipeline.arrRef spec2 0)) (V c (Pipeline.arrRef spec2 1)) (V c (Pipeline.arrRef spec2 2))
      ⟨t.val * 5000 + p.val, hr⟩ q).symm
  -- the two rows of logits agree lane by lane: the blocks read where they sit in the arrays
  refine congrArg (fun f => logSoftmaxRow f q) (funext fun j => ?_)
  exact congrArg₂ (· + ·)
    (Finset.sum_congr rfl fun k _ => congrArg₂ (· * ·)
      (rows_block_apply V c t p k ⟨t.val * 5000 + p.val, hr⟩ rfl) (weight_block_apply V c t k j))
    (bias_block_apply V c t j)

/-! ## The blocks cover the result -/

/-- An index of the result array lies in point t's block exactly when, on each axis, its coordinate lies in the block's
    range: from (block index × block size) up to that plus the block size. -/
theorem mem_block (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v31).slice (win2_3.rect t)).set ↔ _
  rw [View.set_slice_whole, Rect.mem_set_unit]
  exact Iff.rfl

/-- Every index of the result lies in the block of a point that writes back: row r lies in the block of point r / 5000,
    whose rows are 5000·(r / 5000) … 5000·(r / 5000) + 4999, and every block spans all 40 lanes. -/
theorem blocks_cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  obtain ⟨t, ht⟩ : ∃ t : Fin cfg2.N, t.val = (i 0).val / 5000 :=
    ⟨⟨(i 0).val / 5000, by show (i 0).val / 5000 < 20; omega⟩, rfl⟩
  obtain ⟨-, -, -, -, -, -, e0, e1⟩ := block_indices t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-! ## The result array after the call -/

/-- THE HEAD STAGE: after its last grid point, the third call's result array is the head (logits, then the row-wise
    log-softmax) of the features, the weight and the bias row it was entered with. Each point writes block t of that
    array of values, and the blocks cover it. -/
theorem whole (V : (c : Dev nD) → (b : Ref sig .tc) → Buf (Elt Ideal) ((c : Thread nD τ).loc b)) (c : Dev nD) :
    (dat2 (F := Ideal) V c).arrAt 3 cfg2.N
      = Cert.Gcn.head (V c (Pipeline.arrRef spec2 0)) (V c (Pipeline.arrRef spec2 1)) (V c (Pipeline.arrRef spec2 2)) :=
  (dat2 (F := Ideal) V c).arrAt_eq_of_cover 3 _ (fun t _ => flushed_eq V c t) blocks_cover

end Cert.KernelIdeal.Stage3

end
-- ==== Proof.KernelValue.lean ====
/-
  The tiled program's result, as a function of its arguments.

  Walking back from the return through the run's boundaries: the result is the third stage's output array, which is
  `head` of what that stage found in its three input arrays; the first of these is the aggregation over the edge list
  of the second stage's output array, which is `layer2` of what the second stage found; and so on down to `layer1` of
  the features, the first weight and the first bias's row. Every weight is read as launched, and each bias as a one-row
  array whose entry (0, j) is the bias at j.
-/
import proofs.«173519_j6047313953622_1_alg».proof.Proof.KernelRun
import proofs.«173519_j6047313953622_1_alg».proof.Proof.KernelHost
import proofs.«173519_j6047313953622_1_alg».proof.Proof.Stage1Rows
import proofs.«173519_j6047313953622_1_alg».proof.Proof.Stage2Rows
import proofs.«173519_j6047313953622_1_alg».proof.Proof.Stage3Rows

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first stage's output array: `layer1` of the features, the first weight and the first bias's row. -/
theorem stage1_output :
    (dat0 (F := Ideal) (V1 m ρ) c).arrAt 3 cfg0.N = Cert.Gcn.layer1 (m ((c : Thread nD τ).loc main_arg0)) (m ((c : Thread nD τ).loc main_arg4)) (V1 m ρ c main_v0) := by
  have h : (dat0 (F := Ideal) (V1 m ρ) c).arrAt 3 cfg0.N
      = Cert.Gcn.layer1 (V1 m ρ c main_arg0) (V1 m ρ c main_arg4) (V1 m ρ c main_v0) := Stage1.whole (V1 m ρ) c
  rw [h, Host.stage1_features, Host.stage1_weight]

/-- The second stage's output array: `layer2` of the aggregated first output, the second weight and the second bias's row. -/
theorem stage2_output :
    (dat1 (F := Ideal) (V3 m ρ) c).arrAt 3 cfg1.N
      = Cert.Gcn.layer2 (Host.aggregate (m ((c : Thread nD τ).loc main_arg1)) (m ((c : Thread nD τ).loc main_arg2)) (m ((c : Thread nD τ).loc main_arg3))
          (Cert.Gcn.layer1 (m ((c : Thread nD τ).loc main_arg0)) (m ((c : Thread nD τ).loc main_arg4)) (V1 m ρ c main_v0))) (m ((c : Thread nD τ).loc main_arg6)) (V3 m ρ c main_v15) := by
  have h : (dat1 (F := Ideal) (V3 m ρ) c).arrAt 3 cfg1.N
      = Cert.Gcn.layer2 (V3 m ρ c main_v14) (V3 m ρ c main_arg6) (V3 m ρ c main_v15) := Stage2.whole (V3 m ρ) c
  rw [h, Host.stage2_input, Host.stage2_weight, stage1_output]

/-- The third stage's output array: `head` of the aggregated second output, the classifier's weight and its bias's row. -/
theorem stage3_output :
    (dat2 (F := Ideal) (V5 m ρ) c).arrAt 3 cfg2.N
      = Cert.Gcn.head (Host.aggregate (m ((c : Thread nD τ).loc main_arg1)) (m ((c : Thread nD τ).loc main_arg2)) (m ((c : Thread nD τ).loc main_arg3))
          (Cert.Gcn.layer2 (Host.aggregate (m ((c : Thread nD τ).loc main_arg1)) (m ((c : Thread nD τ).loc main_arg2)) (m ((c : Thread nD τ).loc main_arg3))
              (Cert.Gcn.layer1 (m ((c : Thread nD τ).loc main_arg0)) (m ((c : Thread nD τ).loc main_arg4)) (V1 m ρ c main_v0))) (m ((c : Thread nD τ).loc main_arg6)) (V3 m ρ c main_v15)))
          (m ((c : Thread nD τ).loc main_arg8)) (V5 m ρ c main_v30) := by
  have h : (dat2 (F := Ideal) (V5 m ρ) c).arrAt 3 cfg2.N
      = Cert.Gcn.head (V5 m ρ c main_v29) (V5 m ρ c main_arg8) (V5 m ρ c main_v30) := Stage3.whole (V5 m ρ) c
  rw [h, Host.stage3_input, Host.stage3_weight, stage2_output]

/-- THE RESULT at the return: the three stages composed, with the aggregation over the edge list between them. -/
theorem result_value :
    W6 m ρ c (Proc.devRef .tc main_v31)
      = Cert.Gcn.head (Host.aggregate (m ((c : Thread nD τ).loc main_arg1)) (m ((c : Thread nD τ).loc main_arg2)) (m ((c : Thread nD τ).loc main_arg3))
          (Cert.Gcn.layer2 (Host.aggregate (m ((c : Thread nD τ).loc main_arg1)) (m ((c : Thread nD τ).loc main_arg2)) (m ((c : Thread nD τ).loc main_arg3))
              (Cert.Gcn.layer1 (m ((c : Thread nD τ).loc main_arg0)) (m ((c : Thread nD τ).loc main_arg4)) (V1 m ρ c main_v0))) (m ((c : Thread nD τ).loc main_arg6)) (V3 m ρ c main_v15)))
          (m ((c : Thread nD τ).loc main_arg8)) (V5 m ρ c main_v30) :=
  (Result.result_eq_stage m ρ c).trans (stage3_output m ρ c)

end Cert.KernelIdeal.Value

end
-- ==== Proof.RefOps.lean ====
/-
  The plain program's run, read back as a composition of its stages.

  The plain program is a straight line of host operations: a dense layer `x·W₁ + b₁`, an aggregation over the edge
  list, relu and a second dense layer, a second aggregation, the head's dense layer and a row-wise log-softmax. Each
  stage is named here as EXACTLY the operations the program applies, as a function of the arrays it reads:

    * `dense1`, `dense2`, `logits` — a matrix product plus a bias broadcast down the rows (`dense2` takes the
      maximum with zero of its input first);
    * `aggregate` — the sparse product over the edge list: row `edge_col[e]` of the dense array is gathered for every
      edge `e` (a negative column index wrapped by the number of nodes first), scaled by `edge_val[e]`, and added into row
      `edge_row[e]` of an array of zeros. Both programs apply these same operations to their dense arrays, so the stage is
      carried as ONE function of the dense array and is never opened;
    * `logSoftmax` — the row maximum (a reduction from the pattern of −∞, then once more the maximum with that pattern),
      the shifted logits, and the shifted logits minus the logarithm of the row sum of their exponentials.

  Two of the stages' operations are written by the program inside functions of its own (relu; log-softmax). Below the
  program's operations are listed in order with those functions' operations in the place of their calls, over the
  buffers each call names; `main_eq` is the check that this list IS the program, and the run then holds every buffer at
  the fold of the list over the launch memory.

  The fold is read in six pieces, one per stage, each over ARBITRARY buffer contents: what the piece leaves in its
  result's buffer is the stage's function of what it found in the buffers it reads, and it leaves every argument a
  later piece reads as it found it. An operation of a called function moves its operands between a value's type and its
  buffer's type; these are one and the same type here, so every such move is the identity, which is seen piece by
  piece. Chained, the pieces give the result as `value` of the arguments.
-/
import proofs.«173519_j6047313953622_1_alg».proof.Proof.Gen.ReferenceIdeal
import Idealize.ShloMosaic.Lib.StableHlo.Run

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

/-! ## The stages, as the program's own operations -/

/-- First dense layer: the matrix product of the features with the weight, plus the bias broadcast down the rows. -/
def dense1 (x : (⟨S100000x128, .f32⟩ : BufTy).Contents (Elt F)) (w : (⟨S128x64, .f32⟩ : BufTy).Contents (Elt F)) (b : (⟨S64, .f32⟩ : BufTy).Contents (Elt F)) : (⟨S100000x64, .f32⟩ : BufTy).Contents (Elt F) :=
  addf (Host.dotGeneral dot_S100000x128_S128x64_S100000x64_1_0_0_1_n_n none x w)
    (broadcastInDim S100000x64 ![0, 1] bcast_S1x64_S100000x64_0_1 (broadcastInDim S1x64 ![1] bcast_S64_S1x64_1 b))

/-- Aggregation over the edge list: gather the dense array's row `col[e]` for every edge (a negative index wrapped by
    100000 first), scale it by `val[e]`, add it into row `row[e]` of zeros. -/
def aggregate (row col : (⟨S1600000, .i32⟩ : BufTy).Contents (Elt F)) (val : (⟨S1600000, .f32⟩ : BufTy).Contents (Elt F)) (dense : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 dense
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- Second dense layer: the maximum of the input with zero, its matrix product with the weight, plus the bias. -/
def dense2 (h : (⟨S100000x64, .f32⟩ : BufTy).Contents (Elt F)) (w : (⟨S64x64, .f32⟩ : BufTy).Contents (Elt F)) (b : (⟨S64, .f32⟩ : BufTy).Contents (Elt F)) : (⟨S100000x64, .f32⟩ : BufTy).Contents (Elt F) :=
  addf (Host.dotGeneral dot_S100000x64_S64x64_S100000x64_1_0_0_1_n_n none
      (maximumf h (broadcastInDim S100000x64 ![] bcast_S_S100000x64 (constant S_ .f32 0x00000000#32))) w)
    (broadcastInDim S100000x64 ![0, 1] bcast_S1x64_S100000x64_0_1 (broadcastInDim S1x64 ![1] bcast_S64_S1x64_1 b))

/-- The head's logits: the matrix product with the classifier's weight, plus its bias. -/
def logits (h : (⟨S100000x64, .f32⟩ : BufTy).Contents (Elt F)) (w : (⟨S64x40, .f32⟩ : BufTy).Contents (Elt F)) (b : (⟨S40, .f32⟩ : BufTy).Contents (Elt F)) : (⟨S100000x40, .f32⟩ : BufTy).Contents (Elt F) :=
  addf (Host.dotGeneral dot_S100000x64_S64x40_S100000x40_1_0_0_1_n_n none h w)
    (broadcastInDim S100000x40 ![0, 1] bcast_S1x40_S100000x40_0_1 (broadcastInDim S1x40 ![1] bcast_S40_S1x40_1 b))

/-- The logits minus their row's maximum (the reduction from the pattern of −∞, and once more the maximum with it). -/
def shifted (l : (⟨S100000x40, .f32⟩ : BufTy).Contents (Elt F)) : (⟨S100000x40, .f32⟩ : BufTy).Contents (Elt F) :=
  subf l (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf l (constant S_ .f32 0xFF800000#32) reducesTo_S100000x40_S100000_d1 h_S_))))

/-- From the shifted logits to the result: minus the logarithm of the row sum of their exponentials. -/
def finish (sh : (⟨S100000x40, .f32⟩ : BufTy).Contents (Elt F)) : (⟨S100000x40, .f32⟩ : BufTy).Contents (Elt F) :=
  subf sh (broadcastInDim S100000x40 ![0, 1] bcast_S100000x1_S100000x40_0_1 (Host.log (broadcastInDim S100000x1 ![0] bcast_S100000_S100000x1_0
    (Host.reduceAdd (Host.exp sh) (constant S_ .f32 0x00000000#32) reducesTo_S100000x40_S100000_d1 h_S_))))

/-- Row-wise log-softmax: the shifted logits, finished. -/
def logSoftmax (l : (⟨S100000x40, .f32⟩ : BufTy).Contents (Elt F)) : (⟨S100000x40, .f32⟩ : BufTy).Contents (Elt F) := finish (shifted l)

/-- The whole program: two rounds of dense layer and aggregation, then the head. -/
def value (x : (⟨S100000x128, .f32⟩ : BufTy).Contents (Elt F)) (row col : (⟨S1600000, .i32⟩ : BufTy).Contents (Elt F)) (val : (⟨S1600000, .f32⟩ : BufTy).Contents (Elt F))
    (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F))
    (wc : (⟨S64x40, .f32⟩ : BufTy).Contents (Elt F)) (bc : (⟨S40, .f32⟩ : BufTy).Contents (Elt F)) : (⟨S100000x40, .f32⟩ : BufTy).Contents (Elt F) :=
  logSoftmax (logits (aggregate row col val (dense2 (aggregate row col val (dense1 x w1 b1)) w2 b2)) wc bc)

/-! ## The program as the list of its operations -/

/-- The program's 62 operations, in order; relu's three and log-softmax's fifteen stand in the place of their calls,
    over the buffers each call names. -/
abbrev ops : List (HloOp τ sig (Elt F)) :=
  [ binary main_arg0 main_arg4 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    unary main_arg3 main_v4 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v3 main_v10 main_v11 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v4 main_v12 (broadcastInDim S1600000x64 ![0, 1] bcast_S1600000x1_S1600000x64_0_1 : (⟨S1600000x1, .f32⟩ : BufTy).Contents (Elt F) → (⟨S1600000x64, .f32⟩ : BufTy).Contents (Elt F)),
    binary main_v12 main_v11 main_v13 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v14 (broadcastInDim S100000x64 ![] bcast_S_S100000x64 : (⟨S_, .f32⟩ : BufTy).Contents (Elt F) → (⟨S100000x64, .f32⟩ : BufTy).Contents (Elt F)),
    unary main_arg1 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf,
    binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    unary main_arg3 main_v22 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v23 (broadcastInDim S1600000 ![] bcast_S_S1600000 : (⟨S_, .i32⟩ : BufTy).Contents (Elt F) → (⟨S1600000, .i32⟩ : BufTy).Contents (Elt F)),
    binary main_arg2 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v25 (broadcastInDim S1600000 ![] bcast_S_S1600000 : (⟨S_, .i32⟩ : BufTy).Contents (Elt F) → (⟨S1600000, .i32⟩ : BufTy).Contents (Elt F)),
    binary main_arg2 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_arg2 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v21 main_v28 main_v29 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v22 main_v30 (broadcastInDim S1600000x64 ![0, 1] bcast_S1600000x1_S1600000x64_0_1 : (⟨S1600000x1, .f32⟩ : BufTy).Contents (Elt F) → (⟨S1600000x64, .f32⟩ : BufTy).Contents (Elt F)),
    binary main_v30 main_v29 main_v31 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v32 (broadcastInDim S100000x64 ![] bcast_S_S100000x64 : (⟨S_, .f32⟩ : BufTy).Contents (Elt F) → (⟨S100000x64, .f32⟩ : BufTy).Contents (Elt F)),
    unary main_arg1 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v34 main_arg8 main_v35 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v36 (broadcastInDim S1x40 ![1] bcast_S40_S1x40_1 : (⟨S40, .f32⟩ : BufTy).Contents (Elt F) → (⟨S1x40, .f32⟩ : BufTy).Contents (Elt F)),
    unary main_v36 main_v37 (broadcastInDim S100000x40 ![0, 1] bcast_S1x40_S100000x40_0_1 : (⟨S1x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v38) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v38) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v39) subf ]

set_option maxRecDepth 8192 in
set_option maxHeartbeats 4000000 in
/-- The list is the program: unfolding the two called functions at their calls gives these operations one after the other. -/
theorem main_eq (c : Dev nD) : main (F := F) c = seq ops := rfl
/-- No buffer of the program is scoped to a region, -/
theorem scopedRefs_eq : (Finset.univ.filter fun b : Ref sig .tc => b.isScoped) = ∅ := by decide
/-- and no semaphore is. -/
theorem scopedSems_eq : (Finset.univ.filter fun sm : SemLoc sig => sm.isScoped .tc) = ∅ := by decide
set_option maxRecDepth 8192 in
/-- Every operation reads and writes TensorCore buffers only. -/
theorem ops_sub : (ops : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The list, cut into pieces -/

/-- The first dense layer's four operations. -/
def opsA : List (HloOp τ sig (Elt F)) :=
  [ binary main_arg0 main_arg4 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]
/-- The first aggregation's sixteen operations. -/
def opsB : List (HloOp τ sig (Elt F)) :=
  [ unary main_arg3 main_v4 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v3 main_v10 main_v11 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v4 main_v12 (broadcastInDim S1600000x64 ![0, 1] bcast_S1600000x1_S1600000x64_0_1 : (⟨S1600000x1, .f32⟩ : BufTy).Contents (Elt F) → (⟨S1600000x64, .f32⟩ : BufTy).Contents (Elt F)),
    binary main_v12 main_v11 main_v13 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v14 (broadcastInDim S100000x64 ![] bcast_S_S100000x64 : (⟨S_, .f32⟩ : BufTy).Contents (Elt F) → (⟨S100000x64, .f32⟩ : BufTy).Contents (Elt F)),
    unary main_arg1 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- relu's three operations and the second dense layer's four. -/
def opsC : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf,
    binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)) ]
/-- The second aggregation's sixteen operations. -/
def opsD : List (HloOp τ sig (Elt F)) :=
  [ unary main_arg3 main_v22 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v23 (broadcastInDim S1600000 ![] bcast_S_S1600000 : (⟨S_, .i32⟩ : BufTy).Contents (Elt F) → (⟨S1600000, .i32⟩ : BufTy).Contents (Elt F)),
    binary main_arg2 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v25 (broadcastInDim S1600000 ![] bcast_S_S1600000 : (⟨S_, .i32⟩ : BufTy).Contents (Elt F) → (⟨S1600000, .i32⟩ : BufTy).Contents (Elt F)),
    binary main_arg2 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_arg2 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v21 main_v28 main_v29 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v22 main_v30 (broadcastInDim S1600000x64 ![0, 1] bcast_S1600000x1_S1600000x64_0_1 : (⟨S1600000x1, .f32⟩ : BufTy).Contents (Elt F) → (⟨S1600000x64, .f32⟩ : BufTy).Contents (Elt F)),
    binary main_v30 main_v29 main_v31 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v32 (broadcastInDim S100000x64 ![] bcast_S_S100000x64 : (⟨S_, .f32⟩ : BufTy).Contents (Elt F) → (⟨S100000x64, .f32⟩ : BufTy).Contents (Elt F)),
    unary main_arg1 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The logits' four operations. -/
def opsE : List (HloOp τ sig (Elt F)) :=
  [ binary main_v34 main_arg8 main_v35 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v36 (broadcastInDim S1x40 ![1] bcast_S40_S1x40_1 : (⟨S40, .f32⟩ : BufTy).Contents (Elt F) → (⟨S1x40, .f32⟩ : BufTy).Contents (Elt F)),
    unary main_v36 main_v37 (broadcastInDim S100000x40 ![0, 1] bcast_S1x40_S100000x40_0_1 : (⟨S1x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)) ]
/-- log-softmax: the starting value and the row maximum's reduction. -/
def opsM : List (HloOp τ sig (Elt F)) :=
  [ TRef.nullary (TRef.of (T := ⟨S_, .f32⟩) main_call1_cst) (constant S_ .f32 0xFF800000#32),
    TRef.binary (TRef.of (T := ⟨S100000x40, .f32⟩) main_v38) (TRef.of (T := ⟨S_, .f32⟩) main_call1_cst) (TRef.of (T := ⟨S100000, .f32⟩) main_call1_v0) (fun x v => Host.reduce FloatOps.maximumf x v reducesTo_S100000x40_S100000_d1 h_S_) ]
/-- log-softmax: the starting value once more, stretched over the rows, and the maximum with it. -/
def opsN : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]
/-- log-softmax: the row maximum stretched to the logits' shape, and the subtraction. -/
def opsS : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v38) (TRef.of (T := ⟨S100000x40, .f32⟩) main_call1_v4) (TRef.of (T := ⟨S100000x40, .f32⟩) main_call1_v5) subf ]
/-- log-softmax: the exponentials, their row sum from zero, its logarithm stretched to the logits' shape, and the last subtraction. -/
def opsT : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v39) subf ]

set_option maxRecDepth 8192 in
/-- The program's list is the nine pieces one after the other. -/
theorem ops_eq : (ops : List (HloOp τ sig (Elt F)))
    = opsA ++ (opsB ++ (opsC ++ (opsD ++ (opsE ++ (opsM ++ (opsN ++ (opsS ++ opsT))))))) := rfl

/-- Folding through two lists one after the other is folding through the second from what the first leaves. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

end Cert.ReferenceIdeal.Plain

end
-- ==== Proof.RefStages.lean ====
/-
  The plain program's stages, read index by index over the extended reals, are the stage functions of `Stages.lean`.

  A dense stage's entry (r, j) is `Σₖ a[r,k]·w[k,j] + b[j]`: the host's matrix product is the sum over its contracted
  axis, and the bias, broadcast first to a row and then down the rows, is read back at column j. The tiled program stages
  a bias as a one-row array; the comparison is made against ANY one-row array `brow` with `brow[0,j] = b[j]`.

  The log-softmax's row maximum is the fold of `max` over the row's 40 entries from the starting pattern — a
  reduction over one axis, in any order, because `max` is commutative and associative — and the program's second
  `max` with the starting pattern changes nothing, a fold being at least what it starts from. The row sum of the
  exponentials is `0 + Σⱼ`, the zero being the one literal that is evaluated. The host's exponential and logarithm are
  the exact functions.
-/
import proofs.«173519_j6047313953622_1_alg».proof.Proof.RefOps
import proofs.«173519_j6047313953622_1_alg».proof.Proof.Stages
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Plain
open Idealize.ShloMosaic Idealize.ShloMosaic.TcCoe Idealize.ShloMosaic.ValueIdx Idealize.SL.Sem

/-! ## The three matrix products at an index -/

/-- Entry (r, j) of the 100000×128 by 128×64 matrix product is `Σₖ a[r,k]·w[k,j]`: at the exact values the host's product is the
    sum over its one contracted axis, whose index is re-read as the coordinate `k`. -/
theorem product1_apply (a : FVec Ideal S100000x128 .f32) (w : FVec Ideal S128x64 .f32)
    (r : Fin 100000) (j : Fin 64) :
    Host.dotGeneral (F := Ideal) (φ₁ := .f32) (φ₂ := .f32) dot_S100000x128_S128x64_S100000x64_1_0_0_1_n_n none a w (ix2 r j) = ∑ k : Fin 128, a (ix2 r k) * w (ix2 k j) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r j) ((ValueIdx.contrEquiv1 dot_S100000x128_S128x64_S100000x64_1_0_0_1_n_n 128 rfl rfl).symm k) = ix2 r k :=
    funext fun c => Fin.ext (by
      match c with
      | ⟨0, _⟩ =>
        show (dot_S100000x128_S128x64_S100000x64_1_0_0_1_n_n.lhsIdx (ix2 r j) _ 0).val = r.val
        unfold DotDims.lhsIdx
        rw [dif_neg (show ¬(0 : Fin S100000x128.rank) ∈ dot_S100000x128_S128x64_S100000x64_1_0_0_1_n_n.lhsBatch by decide),
          dif_pos (show (0 : Fin S100000x128.rank) ∈ dot_S100000x128_S128x64_S100000x64_1_0_0_1_n_n.lhsNonContracting by decide)]
        rfl
      | ⟨1, _⟩ => exact (dot_S100000x128_S128x64_S100000x64_1_0_0_1_n_n.lhsIdx_val_of_single rfl (ix2 r j) _).trans hk)
  have er : dot_S100000x128_S128x64_S100000x64_1_0_0_1_n_n.rhsIdx (ix2 r j) ((ValueIdx.contrEquiv1 dot_S100000x128_S128x64_S100000x64_1_0_0_1_n_n 128 rfl rfl).symm k) = ix2 k j :=
    funext fun c => Fin.ext (by
      match c with
      | ⟨0, _⟩ => exact (dot_S100000x128_S128x64_S100000x64_1_0_0_1_n_n.rhsIdx_val_of_single rfl (ix2 r j) _).trans hk
      | ⟨1, _⟩ =>
        show (dot_S100000x128_S128x64_S100000x64_1_0_0_1_n_n.rhsIdx (ix2 r j) _ 1).val = j.val
        unfold DotDims.rhsIdx
        rw [dif_neg (show ¬(1 : Fin S128x64.rank) ∈ dot_S100000x128_S128x64_S100000x64_1_0_0_1_n_n.rhsBatch by decide),
          dif_pos (show (1 : Fin S128x64.rank) ∈ dot_S100000x128_S128x64_S100000x64_1_0_0_1_n_n.rhsNonContracting by decide)]
        rfl)
  rw [el, er]

/-- Entry (r, j) of the 100000×64 by 64×64 matrix product is `Σₖ a[r,k]·w[k,j]`: at the exact values the host's product is the
    sum over its one contracted axis, whose index is re-read as the coordinate `k`. -/
theorem product2_apply (a : FVec Ideal S100000x64 .f32) (w : FVec Ideal S64x64 .f32)
    (r : Fin 100000) (j : Fin 64) :
    Host.dotGeneral (F := Ideal) (φ₁ := .f32) (φ₂ := .f32) dot_S100000x64_S64x64_S100000x64_1_0_0_1_n_n none a w (ix2 r j) = ∑ k : Fin 64, a (ix2 r k) * w (ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j) ((ValueIdx.contrEquiv1 dot_S100000x64_S64x64_S100000x64_1_0_0_1_n_n 64 rfl rfl).symm k) = ix2 r k :=
    funext fun c => Fin.ext (by
      match c with
      | ⟨0, _⟩ =>
        show (dot_S100000x64_S64x64_S100000x64_1_0_0_1_n_n.lhsIdx (ix2 r j) _ 0).val = r.val
        unfold DotDims.lhsIdx
        rw [dif_neg (show ¬(0 : Fin S100000x64.rank) ∈ dot_S100000x64_S64x64_S100000x64_1_0_0_1_n_n.lhsBatch by decide),
          dif_pos (show (0 : Fin S100000x64.rank) ∈ dot_S100000x64_S64x64_S100000x64_1_0_0_1_n_n.lhsNonContracting by decide)]
        rfl
      | ⟨1, _⟩ => exact (dot_S100000x64_S64x64_S100000x64_1_0_0_1_n_n.lhsIdx_val_of_single rfl (ix2 r j) _).trans hk)
  have er : dot_S100000x64_S64x64_S100000x64_1_0_0_1_n_n.rhsIdx (ix2 r j) ((ValueIdx.contrEquiv1 dot_S100000x64_S64x64_S100000x64_1_0_0_1_n_n 64 rfl rfl).symm k) = ix2 k j :=
    funext fun c => Fin.ext (by
      match c with
      | ⟨0, _⟩ => exact (dot_S100000x64_S64x64_S100000x64_1_0_0_1_n_n.rhsIdx_val_of_single rfl (ix2 r j) _).trans hk
      | ⟨1, _⟩ =>
        show (dot_S100000x64_S64x64_S100000x64_1_0_0_1_n_n.rhsIdx (ix2 r j) _ 1).val = j.val
        unfold DotDims.rhsIdx
        rw [dif_neg (show ¬(1 : Fin S64x64.rank) ∈ dot_S100000x64_S64x64_S100000x64_1_0_0_1_n_n.rhsBatch by decide),
          dif_pos (show (1 : Fin S64x64.rank) ∈ dot_S100000x64_S64x64_S100000x64_1_0_0_1_n_n.rhsNonContracting by decide)]
        rfl)
  rw [el, er]

/-- Entry (r, j) of the 100000×64 by 64×40 matrix product is `Σₖ a[r,k]·w[k,j]`: at the exact values the host's product is the
    sum over its one contracted axis, whose index is re-read as the coordinate `k`. -/
theorem product3_apply (a : FVec Ideal S100000x64 .f32) (w : FVec Ideal S64x40 .f32)
    (r : Fin 100000) (j : Fin 40) :
    Host.dotGeneral (F := Ideal) (φ₁ := .f32) (φ₂ := .f32) dot_S100000x64_S64x40_S100000x40_1_0_0_1_n_n none a w (ix2 r j) = ∑ k : Fin 64, a (ix2 r k) * w (ix2 k j) := by
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx (ix2 r j) ((ValueIdx.contrEquiv1 dot_S100000x64_S64x40_S100000x40_1_0_0_1_n_n 64 rfl rfl).symm k) = ix2 r k :=
    funext fun c => Fin.ext (by
      match c with
      | ⟨0, _⟩ =>
        show (dot_S100000x64_S64x40_S100000x40_1_0_0_1_n_n.lhsIdx (ix2 r j) _ 0).val = r.val
        unfold DotDims.lhsIdx
        rw [dif_neg (show ¬(0 : Fin S100000x64.rank) ∈ dot_S100000x64_S64x40_S100000x40_1_0_0_1_n_n.lhsBatch by decide),
          dif_pos (show (0 : Fin S100000x64.rank) ∈ dot_S100000x64_S64x40_S100000x40_1_0_0_1_n_n.lhsNonContracting by decide)]
        rfl
      | ⟨1, _⟩ => exact (dot_S100000x64_S64x40_S100000x40_1_0_0_1_n_n.lhsIdx_val_of_single rfl (ix2 r j) _).trans hk)
  have er : dot_S100000x64_S64x40_S100000x40_1_0_0_1_n_n.rhsIdx (ix2 r j) ((ValueIdx.contrEquiv1 dot_S100000x64_S64x40_S100000x40_1_0_0_1_n_n 64 rfl rfl).symm k) = ix2 k j :=
    funext fun c => Fin.ext (by
      match c with
      | ⟨0, _⟩ => exact (dot_S100000x64_S64x40_S100000x40_1_0_0_1_n_n.rhsIdx_val_of_single rfl (ix2 r j) _).trans hk
      | ⟨1, _⟩ =>
        show (dot_S100000x64_S64x40_S100000x40_1_0_0_1_n_n.rhsIdx (ix2 r j) _ 1).val = j.val
        unfold DotDims.rhsIdx
        rw [dif_neg (show ¬(1 : Fin S64x40.rank) ∈ dot_S100000x64_S64x40_S100000x40_1_0_0_1_n_n.rhsBatch by decide),
          dif_pos (show (1 : Fin S64x40.rank) ∈ dot_S100000x64_S64x40_S100000x40_1_0_0_1_n_n.rhsNonContracting by decide)]
        rfl)
  rw [el, er]

/-! ## A bias at an index -/

/-- The bias broadcast down the rows, read at (r, j), is the bias at column j. -/
theorem bias64_apply (b : (⟨S64, .f32⟩ : BufTy).Contents (Elt Ideal)) (r : Fin 100000) (j : Fin 64) :
    broadcastInDim S100000x64 ![0, 1] bcast_S1x64_S100000x64_0_1 (broadcastInDim S1x64 ![1] bcast_S64_S1x64_1 b) (ix2 r j) = b (ix1 j) := by
  generalize hy : broadcastInDim S1x64 ![1] bcast_S64_S1x64_1 b = y
  have e1 : broadcastInDim S100000x64 ![0, 1] bcast_S1x64_S100000x64_0_1 y (ix2 r j) = y (ix2 0 j) :=
    broadcastInDim_apply _ bcast_S1x64_S100000x64_0_1 y (ix2 r j) (ix2 0 j) (fun c => match c with
      | ⟨0, _⟩ => by show 0 = if (1 : Nat) = 1 then 0 else r.val; rw [if_pos rfl]
      | ⟨1, _⟩ => by show j.val = if (64 : Nat) = 1 then 0 else j.val; rw [if_neg (by decide)])
  rw [e1, ← hy]
  exact broadcastInDim_apply _ bcast_S64_S1x64_1 b (ix2 0 j) (ix1 j) (fun c => match c with
    | ⟨0, _⟩ => by show j.val = if (64 : Nat) = 1 then 0 else j.val; rw [if_neg (by decide)])

/-- The bias broadcast down the rows, read at (r, j), is the bias at column j. -/
theorem bias40_apply (b : (⟨S40, .f32⟩ : BufTy).Contents (Elt Ideal)) (r : Fin 100000) (j : Fin 40) :
    broadcastInDim S100000x40 ![0, 1] bcast_S1x40_S100000x40_0_1 (broadcastInDim S1x40 ![1] bcast_S40_S1x40_1 b) (ix2 r j) = b (ix1 j) := by
  generalize hy : broadcastInDim S1x40 ![1] bcast_S40_S1x40_1 b = y
  have e1 : broadcastInDim S100000x40 ![0, 1] bcast_S1x40_S100000x40_0_1 y (ix2 r j) = y (ix2 0 j) :=
    broadcastInDim_apply _ bcast_S1x40_S100000x40_0_1 y (ix2 r j) (ix2 0 j) (fun c => match c with
      | ⟨0, _⟩ => by show 0 = if (1 : Nat) = 1 then 0 else r.val; rw [if_pos rfl]
      | ⟨1, _⟩ => by show j.val = if (40 : Nat) = 1 then 0 else j.val; rw [if_neg (by decide)])
  rw [e1, ← hy]
  exact broadcastInDim_apply _ bcast_S40_S1x40_1 b (ix2 0 j) (ix1 j) (fun c => match c with
    | ⟨0, _⟩ => by show j.val = if (40 : Nat) = 1 then 0 else j.val; rw [if_neg (by decide)])

/-! ## The dense stages -/

/-- The first dense stage is `layer1`, for any one-row reading of the bias. -/
theorem dense1_eq (x : (⟨S100000x128, .f32⟩ : BufTy).Contents (Elt Ideal)) (w : (⟨S128x64, .f32⟩ : BufTy).Contents (Elt Ideal))
    (b : (⟨S64, .f32⟩ : BufTy).Contents (Elt Ideal)) (brow : (⟨2, ![1, 64]⟩ : Shape).Idx → EReal)
    (hb : ∀ j : Fin 64, brow (ix2 0 j) = b (ix1 j)) :
    dense1 (F := Ideal) x w b = Cert.Gcn.layer1 x w brow := by
  funext i
  obtain ⟨r, j, rfl⟩ : ∃ (r : Fin 100000) (j : Fin 64), i = ix2 r j := ⟨i 0, i 1, eq_ix2 i⟩
  unfold dense1 Cert.Gcn.layer1
  show Host.dotGeneral (F := Ideal) (φ₁ := .f32) (φ₂ := .f32) dot_S100000x128_S128x64_S100000x64_1_0_0_1_n_n none x w (ix2 r j)
      + broadcastInDim S100000x64 ![0, 1] bcast_S1x64_S100000x64_0_1 (broadcastInDim S1x64 ![1] bcast_S64_S1x64_1 b) (ix2 r j) = _
  rw [product1_apply, bias64_apply, hb]

/-- The second dense stage is `layer2`: the maximum with the zero word is taken entry by entry before the product. -/
theorem dense2_eq (h : (⟨S100000x64, .f32⟩ : BufTy).Contents (Elt Ideal)) (w : (⟨S64x64, .f32⟩ : BufTy).Contents (Elt Ideal))
    (b : (⟨S64, .f32⟩ : BufTy).Contents (Elt Ideal)) (brow : (⟨2, ![1, 64]⟩ : Shape).Idx → EReal)
    (hb : ∀ j : Fin 64, brow (ix2 0 j) = b (ix1 j)) :
    dense2 (F := Ideal) h w b = Cert.Gcn.layer2 h w brow := by
  funext i
  obtain ⟨r, j, rfl⟩ : ∃ (r : Fin 100000) (j : Fin 64), i = ix2 r j := ⟨i 0, i 1, eq_ix2 i⟩
  unfold dense2 Cert.Gcn.layer2
  show Host.dotGeneral (F := Ideal) (φ₁ := .f32) (φ₂ := .f32) dot_S100000x64_S64x64_S100000x64_1_0_0_1_n_n none
        (maximumf h (broadcastInDim S100000x64 ![] bcast_S_S100000x64 (constant S_ .f32 0x00000000#32))) w (ix2 r j)
      + broadcastInDim S100000x64 ![0, 1] bcast_S1x64_S100000x64_0_1 (broadcastInDim S1x64 ![1] bcast_S64_S1x64_1 b) (ix2 r j) = _
  rw [product2_apply, bias64_apply, hb]
  rfl

/-- The head's logits are `logits`. -/
theorem logits_eq (h : (⟨S100000x64, .f32⟩ : BufTy).Contents (Elt Ideal)) (w : (⟨S64x40, .f32⟩ : BufTy).Contents (Elt Ideal))
    (b : (⟨S40, .f32⟩ : BufTy).Contents (Elt Ideal)) (brow : (⟨2, ![1, 40]⟩ : Shape).Idx → EReal)
    (hb : ∀ j : Fin 40, brow (ix2 0 j) = b (ix1 j)) :
    Plain.logits (F := Ideal) h w b = Cert.Gcn.logits h w brow := by
  funext i
  obtain ⟨r, j, rfl⟩ : ∃ (r : Fin 100000) (j : Fin 40), i = ix2 r j := ⟨i 0, i 1, eq_ix2 i⟩
  unfold Plain.logits Cert.Gcn.logits
  show Host.dotGeneral (F := Ideal) (φ₁ := .f32) (φ₂ := .f32) dot_S100000x64_S64x40_S100000x40_1_0_0_1_n_n none h w (ix2 r j)
      + broadcastInDim S100000x40 ![0, 1] bcast_S1x40_S100000x40_0_1 (broadcastInDim S1x40 ![1] bcast_S40_S1x40_1 b) (ix2 r j) = _
  rw [product3_apply, bias40_apply, hb]

end Cert.ReferenceIdeal.Stages

end
-- ==== Proof.RefRowMax.lean ====
/-
  The plain program's row maximum, read at a row over the extended reals, is `rowMax` of `Stages.lean`.

  The program reduces each row of the logits with `max` from the pattern of −∞ — over one axis such a reduction is the
  fold of `max` over the row's 40 entries, in any order, `max` being commutative and associative — and takes `max` with
  that pattern once more, which changes nothing: a fold of `max` is at least its starting value. The result, a vector
  over the rows, is then stretched to a column and across the 40 classes, so that at (r, j) it is read back at r.
  The reduction itself is never opened: it is rewritten by the library's reading of a one-axis reduction as a fold.
-/
import proofs.«173519_j6047313953622_1_alg».proof.Proof.RefOps
import proofs.«173519_j6047313953622_1_alg».proof.Proof.Stages
import Idealize.ShloMosaic.Lib.Pipeline.Value
import Idealize.ShloMosaic.Lib.ValueIdx
import Idealize.ShloMosaic.PureOps.Ideal.Laws

noncomputable section

namespace Cert.ReferenceIdeal.RowMax

open Cert.ReferenceIdeal Cert.ReferenceIdeal.Gen Cert.ReferenceIdeal.Plain
open Idealize.ShloMosaic Idealize.ShloMosaic.TcCoe Idealize.ShloMosaic.ValueIdx Idealize.SL.Sem

-- a fold over every index of the logits: rewritten by its one-axis reading, compared through its arguments, never opened
attribute [local irreducible] Host.reduce

/-- A vector over the rows stretched to a column, read at (r, 0), is the vector at r. -/
theorem column_apply (v : (⟨S100000, .f32⟩ : BufTy).Contents (Elt Ideal)) (r : Fin 100000) :
    broadcastInDim S100000x1 ![0] bcast_S100000_S100000x1_0 v (ix2 r 0) = v (ix1 r) :=
  broadcastInDim_apply _ bcast_S100000_S100000x1_0 v (ix2 r 0) (ix1 r) (fun c => match c with
    | ⟨0, _⟩ => by show r.val = if (100000 : Nat) = 1 then 0 else r.val; rw [if_neg (by decide)])

/-- A column stretched across the 40 classes, read at (r, j), is the column at (r, 0). -/
theorem across_apply (y : (⟨S100000x1, .f32⟩ : BufTy).Contents (Elt Ideal)) (r : Fin 100000) (j : Fin 40) :
    broadcastInDim S100000x40 ![0, 1] bcast_S100000x1_S100000x40_0_1 y (ix2 r j) = y (ix2 r 0) :=
  broadcastInDim_apply _ bcast_S100000x1_S100000x40_0_1 y (ix2 r j) (ix2 r 0) (fun c => match c with
    | ⟨0, _⟩ => by show r.val = if (100000 : Nat) = 1 then 0 else r.val; rw [if_neg (by decide)]
    | ⟨1, _⟩ => by show 0 = if (1 : Nat) = 1 then 0 else j.val; rw [if_pos rfl])

/-- The row's index with the class coordinate k put back is (r, k). -/
theorem lift_eq (h : S100000x40.Reduces [1] S100000) (r : Fin 100000) (k : Fin 40) :
    h.lift (ix1 r) k = ix2 r k :=
  funext fun c => Fin.ext (by match c with | ⟨0, _⟩ => rfl | ⟨1, _⟩ => rfl)

/-- The reduction of row r with `max` from the starting pattern is the fold of `max` over the row's entries. -/
theorem reduceMax_apply (l : (⟨S100000x40, .f32⟩ : BufTy).Contents (Elt Ideal)) (r : Fin 100000) :
    Host.reduce (FloatOps.maximumf (F := Ideal) (φ := .f32)) l (constant (F := Ideal) S_ .f32 0xFF800000#32) reducesTo_S100000x40_S100000_d1 h_S_ (ix1 r)
      = Cert.Gcn.rowMax l r := by
  have h : S100000x40.Reduces [1] S100000 := by decide
  rw [Host.reduce_eq_fold_single (FloatOps.maximumf (F := Ideal) (φ := .f32)) l _ reducesTo_S100000x40_S100000_d1 h h_S_ (ix1 r)]
  unfold Cert.Gcn.rowMax
  show (Finset.univ : Finset (Fin 40)).fold max (Ideal.ofBits .f32 0xFF800000#32) (l ∘ h.lift (ix1 r)) = _
  exact congrArg (fun f : Fin 40 → EReal => (Finset.univ : Finset (Fin 40)).fold max (Ideal.ofBits .f32 0xFF800000#32) f)
    (funext fun k => congrArg l (lift_eq h r k))

/-- The starting pattern stretched over the rows, read at a row, is the pattern. -/
theorem start_apply (r : Fin 100000) :
    broadcastInDim S100000 ![] bcast_S_S100000 (constant (F := Ideal) S_ .f32 0xFF800000#32) (ix1 r) = Cert.Gcn.negInfWord :=
  broadcastInDim_apply _ bcast_S_S100000 (constant (F := Ideal) S_ .f32 0xFF800000#32) (ix1 r) ix0 (fun c => c.elim0)

/-- The program's row maximum — the reduction, and once more the maximum with the starting pattern — is `rowMax`: a fold
    of `max` is at least the value it starts from. -/
theorem rowMax_apply (l : (⟨S100000x40, .f32⟩ : BufTy).Contents (Elt Ideal)) (r : Fin 100000) :
    maximumf (F := Ideal) (broadcastInDim S100000 ![] bcast_S_S100000 (constant (F := Ideal) S_ .f32 0xFF800000#32))
      (Host.reduce (FloatOps.maximumf (F := Ideal) (φ := .f32)) l (constant (F := Ideal) S_ .f32 0xFF800000#32) reducesTo_S100000x40_S100000_d1 h_S_) (ix1 r)
      = Cert.Gcn.rowMax l r := by
  rw [ValueIdx.maximumf_apply, reduceMax_apply, start_apply]
  unfold Cert.Gcn.rowMax
  exact Cert.Gcn.max_start_fold (Finset.univ : Finset (Fin 40)) Cert.Gcn.negInfWord (fun j => l (ix2 r j))

end Cert.ReferenceIdeal.RowMax

end
-- ==== Proof.RefSoftmax.lean ====
/-
  The plain program's row-wise log-softmax, read index by index over the extended reals, is `logSoftmax` of
  `Stages.lean`.

  At (r, j) the shifted logit is the logit minus its row's maximum (`RefRowMax`). The shifted logits' exponentials are
  summed along the row from the zero word — the one literal that is evaluated: `0 + Σⱼ` — and the logarithm of the sum,
  a vector over the rows stretched to the logits' shape, is subtracted. The host's exponential and logarithm are the exact
  functions of the extended reals.
-/
import proofs.«173519_j6047313953622_1_alg».proof.Proof.RefOps
import proofs.«173519_j6047313953622_1_alg».proof.Proof.Stages
import Idealize.ShloMosaic.Lib.Pipeline.Value
import Idealize.ShloMosaic.Lib.ValueIdx
import Idealize.ShloMosaic.PureOps.Ideal.Laws

import proofs.«173519_j6047313953622_1_alg».proof.Proof.RefRowMax

noncomputable section

namespace Cert.ReferenceIdeal.Softmax

open Cert.ReferenceIdeal Cert.ReferenceIdeal.Gen Cert.ReferenceIdeal.Plain Cert.ReferenceIdeal.RowMax
open Idealize.ShloMosaic Idealize.ShloMosaic.TcCoe Idealize.ShloMosaic.ValueIdx Idealize.SL.Sem

-- the row maximum's reduction stays folded here too
attribute [local irreducible] Host.reduce

/-- The host's exponential of an array, read at an index, is the exact exponential of the entry. -/
theorem hostExp_apply (x : FVec Ideal S100000x40 .f32) (i : S100000x40.Idx) : Host.exp (F := Ideal) x i = Ideal.exp (x i) := rfl
/-- The host's logarithm of an array, read at an index, is the exact logarithm of the entry. -/
theorem hostLog_apply (x : FVec Ideal S100000x1 .f32) (i : S100000x1.Idx) : Host.log (F := Ideal) x i = Ideal.log (x i) := rfl

/-- The shifted logits at (r, j): the logit minus its row's maximum. -/
theorem shifted_apply (l : (⟨S100000x40, .f32⟩ : BufTy).Contents (Elt Ideal)) (r : Fin 100000) (j : Fin 40) :
    shifted (F := Ideal) l (ix2 r j) = l (ix2 r j) - Cert.Gcn.rowMax l r := by
  unfold shifted
  rw [ValueIdx.subf_apply, across_apply, column_apply, rowMax_apply]

/-- The row sum of a [100000, 40] array from the zero word is the plain sum over the row's 40 entries. -/
theorem rowSum_apply (e : (⟨S100000x40, .f32⟩ : BufTy).Contents (Elt Ideal)) (r : Fin 100000) :
    Host.reduceAdd (F := Ideal) e (constant (F := Ideal) S_ .f32 0x00000000#32) reducesTo_S100000x40_S100000_d1 h_S_ (ix1 r)
      = ∑ j : Fin 40, e (ix2 r j) := by
  have h : S100000x40.Reduces [1] S100000 := by decide
  simp only [Host.reduceAdd, Ideal.hostReduceAdd_def]
  rw [Ideal.hostReduceAdd_single reducesTo_S100000x40_S100000_d1 h]
  have z : (constant (F := Ideal) S_ .f32 0x00000000#32) (Shape.Idx.first h_S_) = 0 := Ideal.ofBits_zero_f32
  rw [z, zero_add]
  exact Finset.sum_congr rfl fun k _ => congrArg e (lift_eq h r k)

/-- The plain program's log-softmax is `logSoftmax`. -/
theorem logSoftmax_eq (l : (⟨S100000x40, .f32⟩ : BufTy).Contents (Elt Ideal)) : Plain.logSoftmax (F := Ideal) l = Cert.Gcn.logSoftmax l := by
  funext i
  obtain ⟨r, j, rfl⟩ : ∃ (r : Fin 100000) (j : Fin 40), i = ix2 r j := ⟨i 0, i 1, eq_ix2 i⟩
  unfold Plain.logSoftmax Plain.finish Cert.Gcn.logSoftmax
  rw [ValueIdx.subf_apply, across_apply, hostLog_apply, column_apply, rowSum_apply, shifted_apply]
  refine congrArg (fun s : EReal => (l (ix2 r j) - Cert.Gcn.rowMax l r) - Ideal.log s) (Finset.sum_congr rfl fun k _ => ?_)
  rw [hostExp_apply, shifted_apply]

end Cert.ReferenceIdeal.Softmax

end
-- ==== Proof.Bridge.lean ====
/-
  The two programs compute one function of their arguments.

  The tiled program's result is `head (A (layer2 (A (layer1 x W₁ b₁')) W₂ b₂')) W_c b_c'`, where `A` is the aggregation
  over the edge list as the tiled program applies it and `b'` is a bias read as a one-row array; the plain program's is
  `logSoftmax (logits (A' (dense2 (A' (dense1 x W₁ b₁)) W₂ b₂)) W_c b_c)` with its own aggregation `A'`. Stage by stage
  these agree: `dense1`, `dense2` and `logits` are `layer1`, `layer2` and the head's logits for any one-row reading of
  the bias, the plain log-softmax is the tiled one's, and the two aggregations are the same operations with the same
  dimension numbers applied to the same edge arrays — one function, compared as a whole and never opened.
-/
import proofs.«173519_j6047313953622_1_alg».proof.Proof.KernelValue
import proofs.«173519_j6047313953622_1_alg».proof.Proof.RefStages
import proofs.«173519_j6047313953622_1_alg».proof.Proof.RefSoftmax

set_option maxRecDepth 16384

noncomputable section

namespace Cert.Proof.Bridge

open Idealize.ShloMosaic Idealize.ShloMosaic.TcCoe Idealize.ShloMosaic.ValueIdx Idealize.SL.Sem

/-- The aggregation over the edge list is ONE function in the two programs: the same gather, product and scatter-add,
    with the same dimension numbers, of the same arrays. -/
theorem aggregate_eq (row col : (⟨Cert.ReferenceIdeal.S1600000, .i32⟩ : BufTy).Contents (Elt Ideal)) (val : (⟨Cert.ReferenceIdeal.S1600000, .f32⟩ : BufTy).Contents (Elt Ideal))
    (dense : (⟨Cert.ReferenceIdeal.S100000x64, .f32⟩ : BufTy).Contents (Elt Ideal)) :
    Cert.KernelIdeal.Host.aggregate (F := Ideal) row col val dense = Cert.ReferenceIdeal.Plain.aggregate (F := Ideal) row col val dense := rfl

/-- THE TILED PROGRAM'S RESULT at the return is the plain program's `value` of the same arguments. -/
theorem result_eq_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W6 m ρ c (Proc.devRef .tc Cert.KernelIdeal.main_v31)
      = Cert.ReferenceIdeal.Plain.value (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Value.result_value]
  unfold Cert.ReferenceIdeal.Plain.value
  rw [Cert.ReferenceIdeal.Stages.dense1_eq _ _ _ (Cert.KernelIdeal.Gen.V1 m ρ c Cert.KernelIdeal.main_v0) (fun j => Cert.KernelIdeal.Host.stage1_bias m ρ c j),
    Cert.ReferenceIdeal.Stages.dense2_eq _ _ _ (Cert.KernelIdeal.Gen.V3 m ρ c Cert.KernelIdeal.main_v15) (fun j => Cert.KernelIdeal.Host.stage2_bias m ρ c j),
    Cert.ReferenceIdeal.Stages.logits_eq _ _ _ (Cert.KernelIdeal.Gen.V5 m ρ c Cert.KernelIdeal.main_v30) (fun j => Cert.KernelIdeal.Host.stage3_bias m ρ c j),
    Cert.ReferenceIdeal.Softmax.logSoftmax_eq]
  simp only [aggregate_eq]
  rfl

end Cert.Proof.Bridge

end
-- ==== Proof.RefPieces.lean ====
/-
  The plain program's list of operations, read piece by piece.

  Each lemma is stated for ARBITRARY buffer contents `W` before the piece: what the piece leaves in its result's buffer is
  the stage's function of what it found in the buffers it reads, and it leaves as it found them the buffers a later
  piece still reads. An operation of a called function (relu, log-softmax) moves its operands between a value's type and
  its buffer's type; the two are one type here and the move is the identity, which each piece's lemma sees on its own few
  operations. The row maximum's reduction is a fold over every index of the logits: it is compared through its arguments
  and never opened.
-/
import proofs.«173519_j6047313953622_1_alg».proof.Proof.RefOps

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

/-! ## What each piece leaves in its result -/

/-- The first piece leaves the first dense layer of the features, the first weight and the first bias. -/
theorem pieceA (W : Valuation τ sig (Elt F)) :
    after opsA W (Proc.devRef .tc main_v3) = dense1 (F := F) (W (Proc.devRef .tc main_arg0)) (W (Proc.devRef .tc main_arg4)) (W (Proc.devRef .tc main_arg5)) := by
  unfold opsA; after_results <;> rfl
set_option maxHeartbeats 1000000 in
/-- The second piece leaves the aggregation of the first dense layer's result. -/
theorem pieceB (W : Valuation τ sig (Elt F)) :
    after opsB W (Proc.devRef .tc main_v16)
      = aggregate (F := F) (W (Proc.devRef .tc main_arg1)) (W (Proc.devRef .tc main_arg2)) (W (Proc.devRef .tc main_arg3)) (W (Proc.devRef .tc main_v3)) := by
  unfold opsB; after_results_simp <;> rfl
/-- The third piece leaves the second dense layer of the aggregated array, the second weight and the second bias. -/
theorem pieceC (W : Valuation τ sig (Elt F)) :
    after opsC W (Proc.devRef .tc main_v21) = dense2 (F := F) (W (Proc.devRef .tc main_v16)) (W (Proc.devRef .tc main_arg6)) (W (Proc.devRef .tc main_arg7)) := by
  unfold opsC; after_results <;> rfl
set_option maxHeartbeats 1000000 in
/-- The fourth piece leaves the aggregation of the second dense layer's result. -/
theorem pieceD (W : Valuation τ sig (Elt F)) :
    after opsD W (Proc.devRef .tc main_v34)
      = aggregate (F := F) (W (Proc.devRef .tc main_arg1)) (W (Proc.devRef .tc main_arg2)) (W (Proc.devRef .tc main_arg3)) (W (Proc.devRef .tc main_v21)) := by
  unfold opsD; after_results_simp <;> rfl
/-- The fifth piece leaves the logits of the aggregated array, the classifier's weight and its bias. -/
theorem pieceE (W : Valuation τ sig (Elt F)) :
    after opsE W (Proc.devRef .tc main_v38) = logits (F := F) (W (Proc.devRef .tc main_v34)) (W (Proc.devRef .tc main_arg8)) (W (Proc.devRef .tc main_arg9)) := by
  unfold opsE; after_results <;> rfl
attribute [local irreducible] Host.reduce in
set_option maxRecDepth 8192 in
/-- The sixth piece leaves the reduction of each row of the logits with `max`, from the starting pattern. -/
theorem pieceM (W : Valuation τ sig (Elt F)) :
    after opsM W (Proc.devRef .tc main_call1_v0)
      = Host.reduce (FloatOps.maximumf (F := F) (φ := .f32)) (W (Proc.devRef .tc main_v38) : (⟨S100000x40, .f32⟩ : BufTy).Contents (Elt F)) (constant S_ .f32 0xFF800000#32) reducesTo_S100000x40_S100000_d1 h_S_ := by
  unfold opsM; after_results <;> rfl
/-- The seventh leaves the maximum of the starting pattern with that reduction. -/
theorem pieceN (W : Valuation τ sig (Elt F)) :
    after opsN W (Proc.devRef .tc main_call1_v2)
      = maximumf (broadcastInDim S100000 ![] bcast_S_S100000 (constant S_ .f32 0xFF800000#32)) (W (Proc.devRef .tc main_call1_v0) : (⟨S100000, .f32⟩ : BufTy).Contents (Elt F)) := by
  unfold opsN; after_results <;> rfl
/-- The eighth leaves the logits minus the row maximum stretched to their shape. -/
theorem pieceS (W : Valuation τ sig (Elt F)) :
    after opsS W (Proc.devRef .tc main_call1_v5)
      = subf (W (Proc.devRef .tc main_v38) : (⟨S100000x40, .f32⟩ : BufTy).Contents (Elt F)) (broadcastInDim S100000x40 ![0, 1] bcast_S100000x1_S100000x40_0_1
          (broadcastInDim S100000x1 ![0] bcast_S100000_S100000x1_0 (W (Proc.devRef .tc main_call1_v2) : (⟨S100000, .f32⟩ : BufTy).Contents (Elt F)))) := by
  unfold opsS; after_results <;> rfl
/-- The last piece finishes the shifted logits: minus the logarithm of the row sum of their exponentials. -/
theorem pieceT (W : Valuation τ sig (Elt F)) :
    after opsT W (Proc.devRef .tc main_v39) = finish (F := F) (W (Proc.devRef .tc main_call1_v5)) := by
  unfold opsT; after_results <;> rfl

/-! ## What each piece leaves alone -/

theorem keepsA_arg1 (W : Valuation τ sig (Elt F)) :
    after opsA W (Proc.devRef .tc main_arg1) = W (Proc.devRef .tc main_arg1) := by
  unfold opsA; after_results <;> rfl
theorem keepsA_arg2 (W : Valuation τ sig (Elt F)) :
    after opsA W (Proc.devRef .tc main_arg2) = W (Proc.devRef .tc main_arg2) := by
  unfold opsA; after_results <;> rfl
theorem keepsA_arg3 (W : Valuation τ sig (Elt F)) :
    after opsA W (Proc.devRef .tc main_arg3) = W (Proc.devRef .tc main_arg3) := by
  unfold opsA; after_results <;> rfl
theorem keepsA_arg6 (W : Valuation τ sig (Elt F)) :
    after opsA W (Proc.devRef .tc main_arg6) = W (Proc.devRef .tc main_arg6) := by
  unfold opsA; after_results <;> rfl
theorem keepsA_arg7 (W : Valuation τ sig (Elt F)) :
    after opsA W (Proc.devRef .tc main_arg7) = W (Proc.devRef .tc main_arg7) := by
  unfold opsA; after_results <;> rfl
theorem keepsA_arg8 (W : Valuation τ sig (Elt F)) :
    after opsA W (Proc.devRef .tc main_arg8) = W (Proc.devRef .tc main_arg8) := by
  unfold opsA; after_results <;> rfl
theorem keepsA_arg9 (W : Valuation τ sig (Elt F)) :
    after opsA W (Proc.devRef .tc main_arg9) = W (Proc.devRef .tc main_arg9) := by
  unfold opsA; after_results <;> rfl
theorem keepsB_arg1 (W : Valuation τ sig (Elt F)) :
    after opsB W (Proc.devRef .tc main_arg1) = W (Proc.devRef .tc main_arg1) := by
  unfold opsB; after_results <;> rfl
theorem keepsB_arg2 (W : Valuation τ sig (Elt F)) :
    after opsB W (Proc.devRef .tc main_arg2) = W (Proc.devRef .tc main_arg2) := by
  unfold opsB; after_results <;> rfl
theorem keepsB_arg3 (W : Valuation τ sig (Elt F)) :
    after opsB W (Proc.devRef .tc main_arg3) = W (Proc.devRef .tc main_arg3) := by
  unfold opsB; after_results <;> rfl
theorem keepsB_arg6 (W : Valuation τ sig (Elt F)) :
    after opsB W (Proc.devRef .tc main_arg6) = W (Proc.devRef .tc main_arg6) := by
  unfold opsB; after_results <;> rfl
theorem keepsB_arg7 (W : Valuation τ sig (Elt F)) :
    after opsB W (Proc.devRef .tc main_arg7) = W (Proc.devRef .tc main_arg7) := by
  unfold opsB; after_results <;> rfl
theorem keepsB_arg8 (W : Valuation τ sig (Elt F)) :
    after opsB W (Proc.devRef .tc main_arg8) = W (Proc.devRef .tc main_arg8) := by
  unfold opsB; after_results <;> rfl
theorem keepsB_arg9 (W : Valuation τ sig (Elt F)) :
    after opsB W (Proc.devRef .tc main_arg9) = W (Proc.devRef .tc main_arg9) := by
  unfold opsB; after_results <;> rfl
theorem keepsC_arg1 (W : Valuation τ sig (Elt F)) :
    after opsC W (Proc.devRef .tc main_arg1) = W (Proc.devRef .tc main_arg1) := by
  unfold opsC; after_results <;> rfl
theorem keepsC_arg2 (W : Valuation τ sig (Elt F)) :
    after opsC W (Proc.devRef .tc main_arg2) = W (Proc.devRef .tc main_arg2) := by
  unfold opsC; after_results <;> rfl
theorem keepsC_arg3 (W : Valuation τ sig (Elt F)) :
    after opsC W (Proc.devRef .tc main_arg3) = W (Proc.devRef .tc main_arg3) := by
  unfold opsC; after_results <;> rfl
theorem keepsC_arg8 (W : Valuation τ sig (Elt F)) :
    after opsC W (Proc.devRef .tc main_arg8) = W (Proc.devRef .tc main_arg8) := by
  unfold opsC; after_results <;> rfl
theorem keepsC_arg9 (W : Valuation τ sig (Elt F)) :
    after opsC W (Proc.devRef .tc main_arg9) = W (Proc.devRef .tc main_arg9) := by
  unfold opsC; after_results <;> rfl
theorem keepsD_arg8 (W : Valuation τ sig (Elt F)) :
    after opsD W (Proc.devRef .tc main_arg8) = W (Proc.devRef .tc main_arg8) := by
  unfold opsD; after_results <;> rfl
theorem keepsD_arg9 (W : Valuation τ sig (Elt F)) :
    after opsD W (Proc.devRef .tc main_arg9) = W (Proc.devRef .tc main_arg9) := by
  unfold opsD; after_results <;> rfl
theorem keepsM_v38 (W : Valuation τ sig (Elt F)) :
    after opsM W (Proc.devRef .tc main_v38) = W (Proc.devRef .tc main_v38) := by
  unfold opsM; after_results <;> rfl
theorem keepsN_v38 (W : Valuation τ sig (Elt F)) :
    after opsN W (Proc.devRef .tc main_v38) = W (Proc.devRef .tc main_v38) := by
  unfold opsN; after_results <;> rfl

end Cert.ReferenceIdeal.Plain

end
-- ==== Proof.RefRun.lean ====
/-
  The plain program's run: every weakly fair execution terminates with the result at the stages' composition of the
  arguments.

  The run holds every buffer at the fold of the program's operations over the launch memory. For the result's buffer the
  fold is read through the nine pieces of the list, last to first: the last piece finishes the shifted logits, which the
  piece before it made from the logits and their row maxima, and so on back to the first dense layer of the features;
  each argument is read where no earlier piece has written it. The chain of the pieces' results is `value` of the
  arguments.
-/
import proofs.«173519_j6047313953622_1_alg».proof.Proof.RefPieces

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce in
/-- From any buffer contents, the fold of the whole list leaves in the result's buffer `value` of what the arguments'
    buffers held. -/
theorem result_read (W : Valuation τ sig (Elt F)) :
    after ops W (Proc.devRef .tc main_v39)
      = value (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [ops_eq]
  simp only [after_append]
  rw [pieceT, pieceS, keepsN_v38, keepsM_v38, pieceN, pieceM, pieceE,
    pieceD, keepsD_arg8, keepsD_arg9,
    pieceC, keepsC_arg1, keepsC_arg2, keepsC_arg3, keepsC_arg8, keepsC_arg9,
    pieceB, keepsB_arg1, keepsB_arg2, keepsB_arg3, keepsB_arg6, keepsB_arg7, keepsB_arg8, keepsB_arg9,
    pieceA, keepsA_arg1, keepsA_arg2, keepsA_arg3, keepsA_arg6, keepsA_arg7, keepsA_arg8, keepsA_arg9]
  unfold value logSoftmax shifted
  rfl

set_option maxRecDepth 8192 in
set_option maxHeartbeats 24800000 in
/-- On every device, from any memory with zero counters: every weakly fair execution of the plain program terminates
    with the result at `value` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = value (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (result_read _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Plain

end
-- ==== Proof.lean ====
/-
  A two-layer graph convolution with a log-softmax head, tiled over the rows, equals its plain form.

  The tiled program computes `x·W₁ + b₁`, `relu(·)·W₂ + b₂` and `log-softmax(·W_c + b_c)` in three stages, each cutting
  the 100000 rows of its input into twenty blocks of 5000 and writing back the corresponding block of its result, with
  the aggregation over the edge list (gather, scale, scatter-add) applied between the stages on the host. The plain
  program applies the same layers to whole arrays. Over the extended reals the two agree exactly:

    * an entry of a dense layer depends on ONE row of the layer's input, so the twenty blocks a stage writes back are
      the twenty row blocks of one whole-array function of its operands, and they cover every row (Stage1Rows,
      Stage2Rows, Stage3Payload, Stage3Rows); a matrix product into a zero accumulator is the plain sum over the
      contracted axis, and a change of number format is the identity;
    * between the stages both programs apply the same aggregation to their dense arrays (KernelHost, RefRun): it is one
      function, never opened;
    * the plain log-softmax takes the maximum with the row maximum's starting value once more, which changes nothing,
      and sums the exponentials from zero (RefSoftmax).

  No step needs an entry to be finite — sums and maxima are reordered, nothing is cancelled or distributed — so the
  precondition is never opened. The three frames: the tiled programs' are the generated frames; the plain program's is
  its run with the result dropped. The idealized tiled program is the printed one read at the exact values (no rewrite
  was applied), so `preserves` has nothing to state.
-/
import proofs.«173519_j6047313953622_1_alg».proof.Defs
import proofs.«173519_j6047313953622_1_alg».proof.Proof.Gen.Kernel
import proofs.«173519_j6047313953622_1_alg».proof.Proof.Gen.Kernel.Skeleton
import proofs.«173519_j6047313953622_1_alg».proof.Proof.Gen.Kernel.Launch
import proofs.«173519_j6047313953622_1_alg».proof.Proof.Gen.Kernel.Points
import proofs.«173519_j6047313953622_1_alg».proof.Proof.Gen.Kernel.Frame
import proofs.«173519_j6047313953622_1_alg».proof.Proof.Gen.KernelIdeal
import proofs.«173519_j6047313953622_1_alg».proof.Proof.Gen.KernelIdeal.Skeleton
import proofs.«173519_j6047313953622_1_alg».proof.Proof.Gen.KernelIdeal.Launch
import proofs.«173519_j6047313953622_1_alg».proof.Proof.Gen.KernelIdeal.Points
import proofs.«173519_j6047313953622_1_alg».proof.Proof.Gen.KernelIdeal.Frame
import proofs.«173519_j6047313953622_1_alg».proof.Proof.Gen.ReferenceIdeal
import proofs.«173519_j6047313953622_1_alg».proof.Proof.Gen.Pre_finite_inputs
import proofs.«173519_j6047313953622_1_alg».proof.Proof.Bridge
import proofs.«173519_j6047313953622_1_alg».proof.Proof.RefRun
import Idealize.ShloMosaic.Adequacy
import Idealize.ShloMosaic.Init

noncomputable section

namespace Cert.Proof

open Idealize.ShloMosaic Idealize.ShloMosaic.TcCoe Idealize.SL.Sem

/-- The word-level tiled program runs and keeps its arguments: the generated frame. -/
theorem frame_kernel : Cert.frame_Kernel := fun m ρ _ => Cert.Kernel.Gen.frame m ρ
/-- The idealized tiled program runs and keeps its arguments: the generated frame. -/
theorem frame_kernelIdeal : Cert.frame_KernelIdeal := fun m ρ _ => Cert.KernelIdeal.Gen.frame m ρ
/-- The plain program runs and keeps its arguments: its run, with the result dropped. -/
theorem frame_reference : Cert.frame_ReferenceIdeal := fun m ρ _ =>
  (θ_run Cert.ReferenceIdeal.defs _ _).mono (fun _ h c => (h c).2) (Cert.ReferenceIdeal.Plain.run (F := Ideal) m ρ)

/-- The ideal pass rewrote nothing. -/
theorem preserves : Cert.preserves_Kernel_KernelIdeal := trivial

/-- From memories agreeing on the arguments both programs run, keep their arguments, and end with the same result:
    the plain program's `value` of the arguments. -/
theorem algebraic : Cert.algebraic_KernelIdeal_ReferenceIdeal := by
  intro m ρ m' ρ' _ hagree
  refine ⟨fun c => Cert.ReferenceIdeal.Plain.value (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Bridge.result_eq_value m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Plain.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
